-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1152x10x16x1 : Shape := ⟨5, ![256, 1152, 10, 16, 1]⟩
abbrev S_ : Shape := ⟨0, ![]⟩

class Facts : Prop where
  bcast_S_S256x1152x10x16x1 : S_.BroadcastsInDim S256x1152x10x16x1 (![] : Fin 0 → Fin S256x1152x10x16x1.rank)
  reducesTo_S256x1152x10x16x1_S_d0_1_2_3_4 : S256x1152x10x16x1.ReducesTo [0, 1, 2, 3, 4] S_
  h_S_ : 0 < S_.numel

variable [Facts]

def fn {F : FTy → Type} [FloatOps F] (main_arg0 : FVec F S256x1152x10x16x1 .f32) : IVec S_ 1 :=
  let main_v0 : FVec F S256x1152x10x16x1 .f32 := Host.absf main_arg0
  let main_cst : FVec F S_ .f32 := constant S_ .f32 0x7F800000#32
  let main_v1 : FVec F S256x1152x10x16x1 .f32 := broadcastInDim S256x1152x10x16x1 ![] bcast_S_S256x1152x10x16x1 main_cst
  let main_v2 : IVec S256x1152x10x16x1 1 := cmpf .olt main_v0 main_v1
  let main_c : IVec S_ 1 := constantI S_ 1 1#1
  let main_v3 : IVec S_ 1 := (fun x v => Host.reduce IntOp.andi x v reducesTo_S256x1152x10x16x1_S_d0_1_2_3_4 h_S_) main_v2 main_c
  main_v3
-- ==== Kernel.lean ====
abbrev S256x1152x10x16x1 : Shape := ⟨5, ![256, 1152, 10, 16, 1]⟩
abbrev S256x1152x10x16 : Shape := ⟨4, ![256, 1152, 10, 16]⟩
abbrev S256x10x16x1152 : Shape := ⟨4, ![256, 10, 16, 1152]⟩
abbrev S10x256x16 : Shape := ⟨3, ![10, 256, 16]⟩
abbrev S64x1x16x1152 : Shape := ⟨4, ![64, 1, 16, 1152]⟩
abbrev S1x64x16 : Shape := ⟨3, ![1, 64, 16]⟩
abbrev S64x16x1152 : Shape := ⟨3, ![64, 16, 1152]⟩
abbrev S64x1152 : Shape := ⟨2, ![64, 1152]⟩
abbrev S64 : Shape := ⟨1, ![64]⟩
abbrev S64x1 : Shape := ⟨2, ![64, 1]⟩
abbrev S64x1x1152 : Shape := ⟨3, ![64, 1, 1152]⟩
abbrev S64x16 : Shape := ⟨2, ![64, 16]⟩
abbrev S64x16x1 : Shape := ⟨3, ![64, 16, 1]⟩
abbrev S256x10x16 : Shape := ⟨3, ![256, 10, 16]⟩
abbrev S256x10x16x1 : Shape := ⟨4, ![256, 10, 16, 1]⟩

abbrev nBuf : Space → Nat
  | .hbm => 6
  | .vmem => 4
  | .smem => 0
  | _ => 0

abbrev bufTy : (tb : Table) → Fin (tcTables nBuf tb) → BufTy
  | .hbm, ⟨0, _⟩ => ⟨S256x1152x10x16x1, .f32⟩
  | .hbm, ⟨1, _⟩ => ⟨S256x1152x10x16, .f32⟩
  | .hbm, ⟨2, _⟩ => ⟨S256x10x16x1152, .f32⟩
  | .hbm, ⟨3, _⟩ => ⟨S10x256x16, .f32⟩
  | .hbm, ⟨4, _⟩ => ⟨S256x10x16, .f32⟩
  | .hbm, ⟨5, _⟩ => ⟨S256x10x16x1, .f32⟩
  | .local _ .vmem, ⟨0, _⟩ => ⟨S64x1x16x1152, .f32⟩
  | .local _ .vmem, ⟨1, _⟩ => ⟨S64x1x16x1152, .f32⟩
  | .local _ .vmem, ⟨2, _⟩ => ⟨S1x64x16, .f32⟩
  | .local _ .vmem, ⟨3, _⟩ => ⟨S1x64x16, .f32⟩
  | _, _ => ⟨S256x1152x10x16x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 10], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S64x1x16x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S256x1152x10x16x1_S256x1152x10x16 : S256x1152x10x16x1.ShapeCasts S256x1152x10x16
  transposes_S256x1152x10x16_S256x10x16x1152_0_2_3_1 : S256x1152x10x16.Transposes [0, 2, 3, 1] S256x10x16x1152
  inb_S64x1x16x1152_S64x1x16x1152_0_0_0_0 : ∀ a, (![0, 0, 0, 0] : Fin 4 → Nat) a + S64x1x16x1152.size a ≤ S64x1x16x1152.size a
  h_S64x1x16x1152 : 0 < S64x1x16x1152.numel
  shapeCasts_S64x1x16x1152_S64x16x1152 : S64x1x16x1152.ShapeCasts S64x16x1152
  reduces_S64x1152_S64 : S64x1152.Reduces [1] S64
  shapeCasts_S64_S64x1 : S64.ShapeCasts S64x1
  broadcasts_S64x1_S64x1152 : S64x1.Broadcasts S64x1152
  shapeCasts_S64x1152_S64x1x1152 : S64x1152.ShapeCasts S64x1x1152
  broadcasts_S64x1x1152_S64x16x1152 : S64x1x1152.Broadcasts S64x16x1152
  reduces_S64x16x1152_S64x16 : S64x16x1152.Reduces [2] S64x16
  reduces_S64x16_S64 : S64x16.Reduces [1] S64
  broadcasts_S64x1_S64x16 : S64x1.Broadcasts S64x16
  shapeCasts_S64x16_S64x16x1 : S64x16.ShapeCasts S64x16x1
  broadcasts_S64x16x1_S64x16x1152 : S64x16x1.Broadcasts S64x16x1152
  reduces_S64x16x1152_S64x1152 : S64x16x1152.Reduces [1] S64x1152
  inb_S1x64x16_S1x64x16_0_0_0 : ∀ a, (![0, 0, 0] : Fin 3 → Nat) a + S1x64x16.size a ≤ S1x64x16.size a
  h_S1x64x16 : 0 < S1x64x16.numel
  shapeCasts_S1x64x16_S64x16 : S1x64x16.ShapeCasts S64x16
  shapeCasts_S64x16_S1x64x16 : S64x16.ShapeCasts S1x64x16
  transposes_S10x256x16_S256x10x16_1_0_2 : S10x256x16.Transposes [1, 0, 2] S256x10x16
  bcast_S256x10x16_S256x10x16x1_0_1_2 : S256x10x16.BroadcastsInDim S256x10x16x1 (![0, 1, 2] : Fin 3 → Fin S256x10x16x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1x16x1152.size a ≤ S256x10x16x1152.size a
  hwx0_0 : ∀ i : grid0.Coords, EltTy.bits .f32 = 32 ∨ (Rect.block (s := S256x10x16x1152) S64x1x16x1152.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x16.size a ≤ S10x256x16.size a
  hwx0_1 : ∀ i : grid0.Coords, EltTy.bits .f32 = 32 ∨ (Rect.block (s := S10x256x16) S1x64x16.size (cc0_transform_1 i) (hinb0_1 i)).WholeWords (EltTy.packing .f32)

variable [Facts₀]

abbrev win0_0 : Pipeline.Window sig grid0 :=
  Pipeline.Window.ofSpec (Memref.whole main_v1) S64x1x16x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x64x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x1152x10x16x1 : Shape := ⟨5, ![256, 1152, 10, 16, 1]⟩
abbrev S_ : Shape := ⟨0, ![]⟩
abbrev S256x1152x10x1x1 : Shape := ⟨5, ![256, 1152, 10, 1, 1]⟩
abbrev S256x10x1x1 : Shape := ⟨4, ![256, 10, 1, 1]⟩
abbrev S256x1x10x1x1 : Shape := ⟨5, ![256, 1, 10, 1, 1]⟩
abbrev S256x10x16x1 : Shape := ⟨4, ![256, 10, 16, 1]⟩
abbrev S256x1x10x16x1 : Shape := ⟨5, ![256, 1, 10, 16, 1]⟩
abbrev S256x1x10x1 : Shape := ⟨4, ![256, 1, 10, 1]⟩
abbrev S256x1152x10x1 : Shape := ⟨4, ![256, 1152, 10, 1]⟩

abbrev nBuf : Space → Nat
  | .hbm => 121
  | .vmem => 0
  | .smem => 0
  | _ => 0

abbrev bufTy : (tb : Table) → Fin (tcTables nBuf tb) → BufTy
  | .hbm, ⟨0, _⟩ => ⟨S256x1152x10x16x1, .f32⟩
  | .hbm, ⟨1, _⟩ => ⟨S_, .f32⟩
  | .hbm, ⟨2, _⟩ => ⟨S256x1152x10x1x1, .f32⟩
  | .hbm, ⟨3, _⟩ => ⟨S_, .f32⟩
  | .hbm, ⟨4, _⟩ => ⟨S256x10x1x1, .f32⟩
  | .hbm, ⟨5, _⟩ => ⟨S_, .f32⟩
  | .hbm, ⟨6, _⟩ => ⟨S256x10x1x1, .f32⟩
  | .hbm, ⟨7, _⟩ => ⟨S256x10x1x1, .f32⟩
  | .hbm, ⟨8, _⟩ => ⟨S256x1x10x1x1, .f32⟩
  | .hbm, ⟨9, _⟩ => ⟨S256x1152x10x1x1, .f32⟩
  | .hbm, ⟨10, _⟩ => ⟨S256x1152x10x1x1, .f32⟩
  | .hbm, ⟨11, _⟩ => ⟨S256x1152x10x1x1, .f32⟩
  | .hbm, ⟨12, _⟩ => ⟨S_, .f32⟩
  | .hbm, ⟨13, _⟩ => ⟨S256x10x1x1, .f32⟩
  | .hbm, ⟨14, _⟩ => ⟨S256x1x10x1x1, .f32⟩
  | .hbm, ⟨15, _⟩ => ⟨S256x1152x10x1x1, .f32⟩
  | .hbm, ⟨16, _⟩ => ⟨S256x1152x10x1x1, .f32⟩
  | .hbm, ⟨17, _⟩ => ⟨S256x1152x10x16x1, .f32⟩
  | .hbm, ⟨18, _⟩ => ⟨S256x1152x10x16x1, .f32⟩
  | .hbm, ⟨19, _⟩ => ⟨S_, .f32⟩
  | .hbm, ⟨20, _⟩ => ⟨S256x10x16x1, .f32⟩
  | .hbm, ⟨21, _⟩ => ⟨S256x1x10x16x1, .f32⟩
  | .hbm, ⟨22, _⟩ => ⟨S256x1x10x16x1, .f32⟩
  | .hbm, ⟨23, _⟩ => ⟨S_, .f32⟩
  | .hbm, ⟨24, _⟩ => ⟨S256x1x10x1, .f32⟩
  | .hbm, ⟨25, _⟩ => ⟨S256x1x10x1x1, .f32⟩
  | .hbm, ⟨26, _⟩ => ⟨S_, .f32⟩
  | .hbm, ⟨27, _⟩ => ⟨S256x1x10x1x1, .f32⟩
  | .hbm, ⟨28, _⟩ => ⟨S256x1x10x1x1, .f32⟩
  | .hbm, ⟨29, _⟩ => ⟨S256x1x10x1x1, .f32⟩
  | .hbm, ⟨30, _⟩ => ⟨S256x1x10x16x1, .f32⟩
  | .hbm, ⟨31, _⟩ => ⟨S256x1x10x16x1, .f32⟩
  | .hbm, ⟨32, _⟩ => ⟨S_, .f32⟩
  | .hbm, ⟨33, _⟩ => ⟨S256x1x10x1x1, .f32⟩
  | .hbm, ⟨34, _⟩ => ⟨S256x1x10x1x1, .f32⟩
  | .hbm, ⟨35, _⟩ => ⟨S256x1x10x1x1, .f32⟩
  | .hbm, ⟨36, _⟩ => ⟨S256x1x10x16x1, .f32⟩
  | .hbm, ⟨37, _⟩ => ⟨S256x1x10x16x1, .f32⟩
  | .hbm, ⟨38, _⟩ => ⟨S256x1152x10x16x1, .f32⟩
  | .hbm, ⟨39, _⟩ => ⟨S256x1152x10x16x1, .f32⟩
  | .hbm, ⟨40, _⟩ => ⟨S_, .f32⟩
  | .hbm, ⟨41, _⟩ => ⟨S256x1152x10x1, .f32⟩
  | .hbm, ⟨42, _⟩ => ⟨S256x1152x10x1x1, .f32⟩
  | .hbm, ⟨43, _⟩ => ⟨S256x1152x10x1x1, .f32⟩
  | .hbm, ⟨44, _⟩ => ⟨S_, .f32⟩
  | .hbm, ⟨45, _⟩ => ⟨S256x10x1x1, .f32⟩
  | .hbm, ⟨46, _⟩ => ⟨S_, .f32⟩
  | .hbm, ⟨47, _⟩ => ⟨S256x10x1x1, .f32⟩
  | .hbm, ⟨48, _⟩ => ⟨S256x10x1x1, .f32⟩
  | .hbm, ⟨49, _⟩ => ⟨S256x1x10x1x1, .f32⟩
  | .hbm, ⟨50, _⟩ => ⟨S256x1152x10x1x1, .f32⟩
  | .hbm, ⟨51, _⟩ => ⟨S256x1152x10x1x1, .f32⟩
  | .hbm, ⟨52, _⟩ => ⟨S256x1152x10x1x1, .f32⟩
  | .hbm, ⟨53, _⟩ => ⟨S_, .f32⟩
  | .hbm, ⟨54, _⟩ => ⟨S256x10x1x1, .f32⟩
  | .hbm, ⟨55, _⟩ => ⟨S256x1x10x1x1, .f32⟩
  | .hbm, ⟨56, _⟩ => ⟨S256x1152x10x1x1, .f32⟩
  | .hbm, ⟨57, _⟩ => ⟨S256x1152x10x1x1, .f32⟩
  | .hbm, ⟨58, _⟩ => ⟨S256x1152x10x16x1, .f32⟩
  | .hbm, ⟨59, _⟩ => ⟨S256x1152x10x16x1, .f32⟩
  | .hbm, ⟨60, _⟩ => ⟨S_, .f32⟩
  | .hbm, ⟨61, _⟩ => ⟨S256x10x16x1, .f32⟩
  | .hbm, ⟨62, _⟩ => ⟨S256x1x10x16x1, .f32⟩
  | .hbm, ⟨63, _⟩ => ⟨S256x1x10x16x1, .f32⟩
  | .hbm, ⟨64, _⟩ => ⟨S_, .f32⟩
  | .hbm, ⟨65, _⟩ => ⟨S256x1x10x1, .f32⟩
  | .hbm, ⟨66, _⟩ => ⟨S256x1x10x1x1, .f32⟩
  | .hbm, ⟨67, _⟩ => ⟨S_, .f32⟩
  | .hbm, ⟨68, _⟩ => ⟨S256x1x10x1x1, .f32⟩
  | .hbm, ⟨69, _⟩ => ⟨S256x1x10x1x1, .f32⟩
  | .hbm, ⟨70, _⟩ => ⟨S256x1x10x1x1, .f32⟩
  | .hbm, ⟨71, _⟩ => ⟨S256x1x10x16x1, .f32⟩
  | .hbm, ⟨72, _⟩ => ⟨S256x1x10x16x1, .f32⟩
  | .hbm, ⟨73, _⟩ => ⟨S_, .f32⟩
  | .hbm, ⟨74, _⟩ => ⟨S256x1x10x1x1, .f32⟩
  | .hbm, ⟨75, _⟩ => ⟨S256x1x10x1x1, .f32⟩
  | .hbm, ⟨76, _⟩ => ⟨S256x1x10x1x1, .f32⟩
  | .hbm, ⟨77, _⟩ => ⟨S256x1x10x16x1, .f32⟩
  | .hbm, ⟨78, _⟩ => ⟨S256x1x10x16x1, .f32⟩
  | .hbm, ⟨79, _⟩ => ⟨S256x1152x10x16x1, .f32⟩
  | .hbm, ⟨80, _⟩ => ⟨S256x1152x10x16x1, .f32⟩
  | .hbm, ⟨81, _⟩ => ⟨S_, .f32⟩
  | .hbm, ⟨82, _⟩ => ⟨S256x1152x10x1, .f32⟩
  | .hbm, ⟨83, _⟩ => ⟨S256x1152x10x1x1, .f32⟩
  | .hbm, ⟨84, _⟩ => ⟨S256x1152x10x1x1, .f32⟩
  | .hbm, ⟨85, _⟩ => ⟨S_, .f32⟩
  | .hbm, ⟨86, _⟩ => ⟨S256x10x1x1, .f32⟩
  | .hbm, ⟨87, _⟩ => ⟨S_, .f32⟩
  | .hbm, ⟨88, _⟩ => ⟨S256x10x1x1, .f32⟩
  | .hbm, ⟨89, _⟩ => ⟨S256x10x1x1, .f32⟩
  | .hbm, ⟨90, _⟩ => ⟨S256x1x10x1x1, .f32⟩
  | .hbm, ⟨91, _⟩ => ⟨S256x1152x10x1x1, .f32⟩
  | .hbm, ⟨92, _⟩ => ⟨S256x1152x10x1x1, .f32⟩
  | .hbm, ⟨93, _⟩ => ⟨S256x1152x10x1x1, .f32⟩
  | .hbm, ⟨94, _⟩ => ⟨S_, .f32⟩
  | .hbm, ⟨95, _⟩ => ⟨S256x10x1x1, .f32⟩
  | .hbm, ⟨96, _⟩ => ⟨S256x1x10x1x1, .f32⟩
  | .hbm, ⟨97, _⟩ => ⟨S256x1152x10x1x1, .f32⟩
  | .hbm, ⟨98, _⟩ => ⟨S256x1152x10x1x1, .f32⟩
  | .hbm, ⟨99, _⟩ => ⟨S256x1152x10x16x1, .f32⟩
  | .hbm, ⟨100, _⟩ => ⟨S256x1152x10x16x1, .f32⟩
  | .hbm, ⟨101, _⟩ => ⟨S_, .f32⟩
  | .hbm, ⟨102, _⟩ => ⟨S256x10x16x1, .f32⟩
  | .hbm, ⟨103, _⟩ => ⟨S256x1x10x16x1, .f32⟩
  | .hbm, ⟨104, _⟩ => ⟨S256x1x10x16x1, .f32⟩
  | .hbm, ⟨105, _⟩ => ⟨S_, .f32⟩
  | .hbm, ⟨106, _⟩ => ⟨S256x1x10x1, .f32⟩
  | .hbm, ⟨107, _⟩ => ⟨S256x1x10x1x1, .f32⟩
  | .hbm, ⟨108, _⟩ => ⟨S_, .f32⟩
  | .hbm, ⟨109, _⟩ => ⟨S256x1x10x1x1, .f32⟩
  | .hbm, ⟨110, _⟩ => ⟨S256x1x10x1x1, .f32⟩
  | .hbm, ⟨111, _⟩ => ⟨S256x1x10x1x1, .f32⟩
  | .hbm, ⟨112, _⟩ => ⟨S256x1x10x16x1, .f32⟩
  | .hbm, ⟨113, _⟩ => ⟨S256x1x10x16x1, .f32⟩
  | .hbm, ⟨114, _⟩ => ⟨S_, .f32⟩
  | .hbm, ⟨115, _⟩ => ⟨S256x1x10x1x1, .f32⟩
  | .hbm, ⟨116, _⟩ => ⟨S256x1x10x1x1, .f32⟩
  | .hbm, ⟨117, _⟩ => ⟨S256x1x10x1x1, .f32⟩
  | .hbm, ⟨118, _⟩ => ⟨S256x1x10x16x1, .f32⟩
  | .hbm, ⟨119, _⟩ => ⟨S256x1x10x16x1, .f32⟩
  | .hbm, ⟨120, _⟩ => ⟨S256x10x16x1, .f32⟩
  | _, _ => ⟨S256x1152x10x16x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_6 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_7 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_8 : Ref sig .tc := ⟨.hbm, 44, rfl⟩
abbrev main_v34 : Ref sig .tc := ⟨.hbm, 45, rfl⟩
abbrev main_cst_9 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_10 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_11 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_12 : Ref sig .tc := ⟨.hbm, 64, rfl⟩
abbrev main_v50 : Ref sig .tc := ⟨.hbm, 65, rfl⟩
abbrev main_v51 : Ref sig .tc := ⟨.hbm, 66, rfl⟩
abbrev main_cst_13 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_14 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_15 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_16 : Ref sig .tc := ⟨.hbm, 85, rfl⟩
abbrev main_v67 : Ref sig .tc := ⟨.hbm, 86, rfl⟩
abbrev main_cst_17 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_18 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_19 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_20 : Ref sig .tc := ⟨.hbm, 105, rfl⟩
abbrev main_v83 : Ref sig .tc := ⟨.hbm, 106, rfl⟩
abbrev main_v84 : Ref sig .tc := ⟨.hbm, 107, rfl⟩
abbrev main_cst_21 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_22 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩

abbrev nD : Nat := 1
abbrev τ : Topo := Topo.v7x

variable {F : FTy → Type} [FloatOps F]

class Facts₀ : Prop where
  bcast_S_S256x1152x10x1x1 : S_.BroadcastsInDim S256x1152x10x1x1 (![] : Fin 0 → Fin S256x1152x10x1x1.rank)
  reducesTo_S256x1152x10x1x1_S256x10x1x1_d1 : S256x1152x10x1x1.ReducesTo [1] S256x10x1x1
  h_S_ : 0 < S_.numel
  bcast_S_S256x10x1x1 : S_.BroadcastsInDim S256x10x1x1 (![] : Fin 0 → Fin S256x10x1x1.rank)
  bcast_S256x10x1x1_S256x1x10x1x1_0_2_3_4 : S256x10x1x1.BroadcastsInDim S256x1x10x1x1 (![0, 2, 3, 4] : Fin 4 → Fin S256x1x10x1x1.rank)
  bcast_S256x1x10x1x1_S256x1152x10x1x1_0_1_2_3_4 : S256x1x10x1x1.BroadcastsInDim S256x1152x10x1x1 (![0, 1, 2, 3, 4] : Fin 5 → Fin S256x1152x10x1x1.rank)
  bcast_S256x1152x10x1x1_S256x1152x10x16x1_0_1_2_3_4 : S256x1152x10x1x1.BroadcastsInDim S256x1152x10x16x1 (![0, 1, 2, 3, 4] : Fin 5 → Fin S256x1152x10x16x1.rank)
  reducesTo_S256x1152x10x16x1_S256x10x16x1_d1 : S256x1152x10x16x1.ReducesTo [1] S256x10x16x1
  bcast_S256x10x16x1_S256x1x10x16x1_0_2_3_4 : S256x10x16x1.BroadcastsInDim S256x1x10x16x1 (![0, 2, 3, 4] : Fin 4 → Fin S256x1x10x16x1.rank)
  reducesTo_S256x1x10x16x1_S256x1x10x1_d3 : S256x1x10x16x1.ReducesTo [3] S256x1x10x1
  bcast_S256x1x10x1_S256x1x10x1x1_0_1_2_4 : S256x1x10x1.BroadcastsInDim S256x1x10x1x1 (![0, 1, 2, 4] : Fin 4 → Fin S256x1x10x1x1.rank)
  bcast_S_S256x1x10x1x1 : S_.BroadcastsInDim S256x1x10x1x1 (![] : Fin 0 → Fin S256x1x10x1x1.rank)
  bcast_S256x1x10x1x1_S256x1x10x16x1_0_1_2_3_4 : S256x1x10x1x1.BroadcastsInDim S256x1x10x16x1 (![0, 1, 2, 3, 4] : Fin 5 → Fin S256x1x10x16x1.rank)
  bcast_S256x1x10x16x1_S256x1152x10x16x1_0_1_2_3_4 : S256x1x10x16x1.BroadcastsInDim S256x1152x10x16x1 (![0, 1, 2, 3, 4] : Fin 5 → Fin S256x1152x10x16x1.rank)
  reducesTo_S256x1152x10x16x1_S256x1152x10x1_d3 : S256x1152x10x16x1.ReducesTo [3] S256x1152x10x1
  bcast_S256x1152x10x1_S256x1152x10x1x1_0_1_2_4 : S256x1152x10x1.BroadcastsInDim S256x1152x10x1x1 (![0, 1, 2, 4] : Fin 4 → Fin S256x1152x10x1x1.rank)
  shapeCasts_S256x1x10x16x1_S256x10x16x1 : S256x1x10x16x1.ShapeCasts S256x10x16x1

variable [Facts₀]

class Facts : Prop extends Facts₀ where

variable [Facts]
-- ==== Proof.Routing.lean ====
/-
  Routing by agreement, for ONE pair (batch row, output capsule), on the extended reals.

  The data is a family of prediction vectors `u i : Fin D → EReal`, one per input capsule `i : Fin N`. A vector of
  logits `b : Fin N → EReal` is turned into coupling weights by a softmax over the input capsules (the largest logit
  subtracted first), the weighted mixture of the predictions is squashed to a vector of length below one, and each logit
  is raised by the agreement (the inner product) between its prediction and that output. Three rounds from zero logits;
  the answer is the third round's squashed output.

  Both programs compute exactly these formulas, each operation in the same order and on the same four 32-bit words
  (zero, minus infinity, the small constant under the square root, one); they differ only in how the arrays are laid out
  and in how the sums and the maximum are grouped, which a finite sum and a finite maximum on the extended reals do not
  see. So the words are left as the words they are: nothing below evaluates one.
-/
import Idealize.ShloMosaic.PureOps.Ideal
import Idealize.ShloMosaic.Lib.ValueIdx
import Mathlib.Data.Finset.Fold

noncomputable section

open scoped BigOperators

namespace Cert.Routing

open Idealize.ShloMosaic

variable {N D : ℕ}

/-- The four 32-bit words the two programs spell, read at the extended reals. -/
abbrev zeroW : EReal := Ideal.ofBits .f32 0x00000000#32
abbrev ninfW : EReal := Ideal.ofBits .f32 0xFF800000#32
abbrev epsW : EReal := Ideal.ofBits .f32 0x33D6BF95#32
abbrev oneW : EReal := Ideal.ofBits .f32 0x3F800000#32

/-- The largest logit (the maximum taken from the word for minus infinity). -/
def top (b : Fin N → EReal) : EReal := (Finset.univ : Finset (Fin N)).fold max ninfW b

/-- The exponential of a logit after the largest is subtracted. -/
def ex (b : Fin N → EReal) (i : Fin N) : EReal := Ideal.exp (b i - top b)

/-- The coupling weight of input capsule `i`: its exponential over the sum of all of them. -/
def coef (b : Fin N → EReal) (i : Fin N) : EReal := Ideal.div (ex b i) (∑ k : Fin N, ex b k)

/-- The weighted mixture of the predictions, coordinate `d`. -/
def mix (b : Fin N → EReal) (u : Fin N → Fin D → EReal) (d : Fin D) : EReal := ∑ i : Fin N, coef b i * u i d

/-- The squared length of a vector. -/
def sq (s : Fin D → EReal) : EReal := ∑ d : Fin D, s d * s d

/-- The squash: `|s|² · s / ((1 + |s|²) · √(|s|² + ε))`, coordinate `d`. -/
def squash (s : Fin D → EReal) (d : Fin D) : EReal :=
  Ideal.div (sq s * s d) ((oneW + sq s) * Ideal.sqrt (sq s + epsW))

/-- One round's output capsule from the logits. -/
def caps (b : Fin N → EReal) (u : Fin N → Fin D → EReal) : Fin D → EReal := squash (mix b u)

/-- One round's new logits: each raised by the agreement of its prediction with the round's output. -/
def agree (b : Fin N → EReal) (u : Fin N → Fin D → EReal) (i : Fin N) : EReal := b i + ∑ d : Fin D, u i d * caps b u d

/-- The logits before the first round: the zero word everywhere. -/
def b0 : Fin N → EReal := fun _ => zeroW

/-- Three rounds: the output capsule of the third. -/
def out (u : Fin N → Fin D → EReal) : Fin D → EReal := caps (agree (agree b0 u) u) u

/-- The maximum from minus infinity is not below minus infinity: taking the maximum with that word again changes
    nothing (the reference's softmax does so once per round). -/
theorem max_ninf_top (b : Fin N → EReal) : max ninfW (top b) = top b :=
  max_eq_right ((Finset.le_fold_max _).mpr (Or.inl le_rfl))

/-- THE WHOLE RESULT as one function of the argument array `U : [256, 1152, 10, 16, 1]` (batch row, input capsule, output
    capsule, coordinate, a unit axis): at `(n, o, d, 0)` of `[256, 10, 16, 1]`, coordinate `d` of three rounds of routing
    on the predictions `i, d' ↦ U (n, i, o, d', 0)` of the pair `(n, o)`. -/
def whole (U : (⟨5, ![256, 1152, 10, 16, 1]⟩ : Shape).Idx → EReal) : (⟨4, ![256, 10, 16, 1]⟩ : Shape).Idx → EReal :=
  fun j => out (fun (i : Fin 1152) (d' : Fin 16) => U (ValueIdx.ix5 (j 0) i (j 1) d' 0)) (j 2)

end Cert.Routing

end
-- ==== Proof.LibLane.lean ====
/- A lane sum read at a row: the float add-reduction of an [a, b] vector over its second axis, from the zero
   accumulator, is at the extended reals the plain sum over the lane of the row's entries. -/
import Idealize.ShloMosaic.PureOps.Ideal.Laws
import Idealize.ShloMosaic.Lib.ValueIdx
import Idealize.ShloMosaic.Lib.ValueLayout
import Idealize.ShloMosaic.Lib.Pipeline.Value

noncomputable section
namespace Cert.LibLane
open Idealize.ShloMosaic Idealize.ShloMosaic.ValueIdx

/-- A lane sum of an [a, b] vector (a float `multi_reduction <add>` over axis 1 from the zero accumulator) read at
    row `r`, at the extended reals: the sum over the lane `j` of the entries `(r, j)`. -/
theorem laneSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ j : Fin b, src (ix2 r j) := by
  refine (Ideal.multiReduction_add_single src 0x00000000#32 h hφ hacc (ix1 r)).trans ?_
  refine Finset.sum_congr rfl fun j _ => congrArg src ?_
  funext d
  match d with
  | ⟨0, _⟩ => rfl
  | ⟨1, _⟩ => rfl

end Cert.LibLane
end
-- ==== Proof.LibIndexRead.lean ====
/-
  Layout operations read at an index written by coordinates, for the shapes a row-wise kernel meets:
  a vector of row values kept as a column ([a] cast to [a, 1]), a column spread over the lanes
  ([a, 1] broadcast to [a, b]), a unit-stride rectangular load of a matrix read at (k, j), and the
  host's spellings of the same moves (broadcast_in_dim of a scalar, of a vector along rows or columns,
  a rectangular slice of a matrix). Each statement reads the operation at `ix2 p q` / `ix1 p` and names the
  operand's index by coordinates, so that it applies to a printed operation by unification.
-/
import Idealize.ShloMosaic.Lib.Pipeline.Value
import Idealize.ShloMosaic.Lib.Pipeline.FrameBody
import Idealize.ShloMosaic.Lib.ValueIdx
import Idealize.ShloMosaic.Lib.ValueLayout

namespace Idealize.ShloMosaic.RowRead

open Idealize.ShloMosaic Idealize.ShloMosaic.ValueIdx

variable {α : Type}

/-- An `[a]` array cast to `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A unit-stride rectangle of a matrix, loaded, reads at `(k, j)` the matrix at the rectangle's corner plus `(k, j)`. -/
theorem ld_unit2_apply {Val : EltTy → Type} {e : EltTy} {A B a b : ℕ} (X : (⟨2, ![A, B]⟩ : Shape).Idx → Val e) (o0 o1 : ℕ)
    (inb : ∀ d, (![o0, o1] : Fin 2 → ℕ) d + (![a, b] : Fin 2 → ℕ) d ≤ (⟨2, ![A, B]⟩ : Shape).size d)
    (k : Fin a) (j : Fin b) :
    View.ld X (Rect.unit (s := ⟨2, ![A, B]⟩) ![o0, o1] ![a, b] inb) (ix2 k j)
      = X (ix2 ⟨o0 + k.val, Nat.lt_of_lt_of_le (Nat.add_lt_add_left k.isLt o0) (inb 0)⟩
            ⟨o1 + j.val, Nat.lt_of_lt_of_le (Nat.add_lt_add_left j.isLt o1) (inb 1)⟩) := by
  show X ((Rect.unit (s := ⟨2, ![A, B]⟩) ![o0, o1] ![a, b] inb).idx (ix2 k j)) = _
  refine congrArg X (funext fun d => Fin.ext ?_)
  match d with
  | ⟨0, _⟩ => show o0 + 1 * k.val = o0 + k.val; rw [Nat.one_mul]
  | ⟨1, _⟩ => show o1 + 1 * j.val = o1 + j.val; rw [Nat.one_mul]

/-! ## The host's spellings

The axis map of a `broadcast_in_dim` is a variable of each statement, with the hypothesis `dims = ![…]`; at an operation whose
axis map is that literal the hypothesis holds by reflexivity. -/

/-- A scalar spread over any shape reads the scalar. -/
theorem broadcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun d => d.elim0

/-- An `[a]` vector placed along the rows of an `[a, 1]` column reads, at `(p, u)`, the vector at `p`. -/
theorem broadcastInDim_a_a1_apply {a : ℕ} (dims : Fin (⟨1, ![a]⟩ : Shape).rank → Fin (⟨2, ![a, 1]⟩ : Shape).rank)
    (h : (⟨1, ![a]⟩ : Shape).BroadcastsInDim ⟨2, ![a, 1]⟩ dims) (hd : dims = ![0])
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun d => ?_
  match d with
  | ⟨0, _⟩ =>
    show p.val = if a = 1 then 0 else p.val
    split
    · have := p.isLt; omega
    · rfl

/-- An `[a, 1]` column spread to `[a, b]` reads, at `(p, c)`, the column's entry of row `p`. -/
theorem broadcastInDim_a1_ab_apply {a b : ℕ} (dims : Fin (⟨2, ![a, 1]⟩ : Shape).rank → Fin (⟨2, ![a, b]⟩ : Shape).rank)
    (h : (⟨2, ![a, 1]⟩ : Shape).BroadcastsInDim ⟨2, ![a, b]⟩ dims) (hd : dims = ![0, 1])
    (x : (⟨2, ![a, 1]⟩ : Shape).Idx → α) (p : Fin a) (c : Fin b) :
    broadcastInDim ⟨2, ![a, b]⟩ dims h x (ix2 p c) = x (ix2 p (0 : Fin 1)) := by
  subst hd
  refine broadcastInDim_apply _ h x (ix2 p c) (ix2 p (0 : Fin 1)) fun d => ?_
  match d with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` vector laid as the one row of `[1, b]` reads, at `(u, c)`, the vector at `c`. -/
theorem broadcastInDim_b_1b_apply {b : ℕ} (dims : Fin (⟨1, ![b]⟩ : Shape).rank → Fin (⟨2, ![1, b]⟩ : Shape).rank)
    (h : (⟨1, ![b]⟩ : Shape).BroadcastsInDim ⟨2, ![1, b]⟩ dims) (hd : dims = ![1])
    (x : (⟨1, ![b]⟩ : Shape).Idx → α) (u : Fin 1) (c : Fin b) :
    broadcastInDim ⟨2, ![1, b]⟩ dims h x (ix2 u c) = x (ix1 c) := by
  subst hd
  refine broadcastInDim_apply _ h x (ix2 u c) (ix1 c) fun d => ?_
  match d with
  | ⟨0, _⟩ =>
    show c.val = if b = 1 then 0 else c.val
    split
    · have := c.isLt; omega
    · rfl

/-- A `[1, b]` row spread over `[a, b]` reads, at `(p, c)`, the row at `c`. -/
theorem broadcastInDim_1b_ab_apply {a b : ℕ} (dims : Fin (⟨2, ![1, b]⟩ : Shape).rank → Fin (⟨2, ![a, b]⟩ : Shape).rank)
    (h : (⟨2, ![1, b]⟩ : Shape).BroadcastsInDim ⟨2, ![a, b]⟩ dims) (hd : dims = ![0, 1])
    (x : (⟨2, ![1, b]⟩ : Shape).Idx → α) (p : Fin a) (c : Fin b) :
    broadcastInDim ⟨2, ![a, b]⟩ dims h x (ix2 p c) = x (ix2 (0 : Fin 1) c) := by
  subst hd
  refine broadcastInDim_apply _ h x (ix2 p c) (ix2 (0 : Fin 1) c) fun d => ?_
  match d with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A unit-stride rectangular slice of a matrix reads, at `(k, j)`, the matrix at the offsets plus `(k, j)`. -/
theorem slice2_apply {A B a b : ℕ} (o0 o1 : ℕ) (X : (⟨2, ![A, B]⟩ : Shape).Idx → α)
    (h : (⟨2, ![A, B]⟩ : Shape).Slices ![o0, o1] ⟨2, ![a, b]⟩) (k : Fin a) (j : Fin b)
    (h0 : o0 + k.val < A) (h1 : o1 + j.val < B) :
    extractStridedSlice ⟨2, ![a, b]⟩ ![o0, o1] X h (ix2 k j) = X (ix2 ⟨o0 + k.val, h0⟩ ⟨o1 + j.val, h1⟩) := by
  refine extractStridedSlice_apply ![o0, o1] X h (ix2 k j) _ fun d => ?_
  match d with
  | ⟨0, _⟩ => rfl
  | ⟨1, _⟩ => rfl

end Idealize.ShloMosaic.RowRead
-- ==== Proof.LibRank3Read.lean ====
/-
  Layout operations and single-axis reductions of rank-3 arrays, read at an index written by coordinates.

  A row-wise kernel that keeps a block `[a, b, c]` meets: a per-row vector kept with a middle unit axis (`[a, c]` cast to
  `[a, 1, c]`) and spread over the middle axis (`[a, 1, c]` to `[a, b, c]`); a matrix kept with a trailing unit axis
  (`[a, b]` cast to `[a, b, 1]`) and spread over the last axis (`[a, b, 1]` to `[a, b, c]`); the block's sums along its
  last and along its middle axis; the block itself as a cast of `[a, 1, b, c]`; and a row's maximum taken from the
  word for minus infinity. In every cast the row-major position is unchanged; a broadcast reads the unit coordinate `0`; a sum
  or maximum over one axis ranges over that axis's coordinate with the others fixed.
-/
import Idealize.ShloMosaic.PureOps.Ideal.Laws
import Idealize.ShloMosaic.Lib.Pipeline.Value
import Idealize.ShloMosaic.Lib.ValueIdx

noncomputable section

open scoped BigOperators

namespace Idealize.ShloMosaic.Rank3Read

open Idealize.ShloMosaic Idealize.ShloMosaic.ValueIdx

variable {α : Type}

/-- `[a, c]` cast to `[a, 1, c]` reads, at `(p, u, r)`, the operand at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h (ix3 p u r) (ix2 p r) (by
    have hu : u.val = 0 := by omega
    rw [Shape.rowMajor_val_three, Shape.rowMajor_val_two]
    show p.val * c + r.val = (p.val * 1 + u.val) * c + r.val
    rw [hu, Nat.mul_one, Nat.add_zero])

/-- `[a, 1, c]` spread to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]
  | ⟨2, _⟩ =>
    show r.val = if c = 1 then 0 else r.val
    split
    · have := r.isLt; omega
    · rfl

/-- `[a, b]` cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h (ix3 p q u) (ix2 p q) (by
    have hu : u.val = 0 := by omega
    rw [Shape.rowMajor_val_three, Shape.rowMajor_val_two]
    show p.val * b + q.val = (p.val * b + q.val) * 1 + u.val
    rw [hu, Nat.mul_one, Nat.add_zero])

/-- `[a, b, 1]` spread to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show (0 : ℕ) = if (1 : ℕ) = 1 then 0 else r.val
    rw [if_pos rfl]

/-- `[a, 1, b, c]` cast to `[a, b, c]` reads, at `(p, q, r)`, the operand at `(p, 0, q, r)`. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (p : Fin a) (q : Fin b) (r : Fin c) :
    shapeCast ⟨3, ![a, b, c]⟩ x h (ix3 p q r) = x (ix4 p (0 : Fin 1) q r) :=
  shapeCast_apply x h (ix3 p q r) (ix4 p (0 : Fin 1) q r) (by
    rw [Shape.rowMajor_val_four, Shape.rowMajor_val_three]
    show ((p.val * 1 + 0) * b + q.val) * c + r.val = (p.val * b + q.val) * c + r.val
    rw [Nat.mul_one, Nat.add_zero])

/-- The sum of an `[a, b, c]` array along its LAST axis, from the zero accumulator, read at `(p, q)`. -/
theorem sumLast_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec 32) = 0x00000000#32) (p : Fin a) (q : Fin b) :
    multiReduction .add [2] ⟨2, ![a, b]⟩ src 0x00000000#32 h hφ hacc (ix2 p q) = ∑ k : Fin c, src (ix3 p q k) := by
  refine (Ideal.multiReduction_add_single src 0x00000000#32 h hφ hacc (ix2 p q)).trans ?_
  refine Finset.sum_congr rfl fun k _ => congrArg src ?_
  funext d
  match d with
  | ⟨0, _⟩ => rfl
  | ⟨1, _⟩ => rfl
  | ⟨2, _⟩ => rfl

/-- The sum of an `[a, b, c]` array along its MIDDLE axis, from the zero accumulator, read at `(p, r)`. -/
theorem sumMiddle_apply {a b c : ℕ} (src : FVec Ideal ⟨3, ![a, b, c]⟩ .f32)
    (h : Shape.Reduces ⟨3, ![a, b, c]⟩ [1] ⟨2, ![a, c]⟩) (hφ : FKind.Formats .f32)
    (hacc : (0x00000000#32 : BitVec 32) = 0x00000000#32) (p : Fin a) (r : Fin c) :
    multiReduction .add [1] ⟨2, ![a, c]⟩ src 0x00000000#32 h hφ hacc (ix2 p r) = ∑ k : Fin b, src (ix3 p k r) := by
  refine (Ideal.multiReduction_add_single src 0x00000000#32 h hφ hacc (ix2 p r)).trans ?_
  refine Finset.sum_congr rfl fun k _ => congrArg src ?_
  funext d
  match d with
  | ⟨0, _⟩ => rfl
  | ⟨1, _⟩ => rfl
  | ⟨2, _⟩ => rfl

/-- The maximum of a row of an `[a, b]` array, taken from the word for minus infinity, read at row `p`: the fold of
    `max` from that word's value over the row's entries (the word is not evaluated). -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun j => src (ix2 p j)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  refine congrArg (fun f => Finset.fold max (Ideal.ofBits .f32 0xFF800000#32) f (Finset.univ : Finset (Fin b))) (funext fun j => congrArg src ?_)
  funext d
  match d with
  | ⟨0, _⟩ => rfl
  | ⟨1, _⟩ => rfl

end Idealize.ShloMosaic.Rank3Read

end
-- ==== Proof.Block.lean ====
/-
  What the kernel's body computes from one loaded block, read at an entry.

  The body loads a block `x : [64, 1, 16, 1152]` — 64 batch rows of one output capsule, 16 coordinates, 1152 input
  capsules on the last axis — and works row by row: every reduction runs along the input capsules (the last axis) or along the
  coordinates (the middle axis) of ONE batch row `p`, and every broadcast copies a row's value along one of those axes.
  So the entry `(p, d)` of what it stores depends on row `p` of the block only, and is coordinate `d` of three rounds of
  routing (Routing.lean) on the predictions `i, d' ↦ x (p, 0, d', i)`.

  The body is three rounds unrolled. Its text is cut here into the six moves of a round — exponentials after the row
  maximum is subtracted; coupling weights; the weighted mixture; the squared length; the squash; the logits raised by the
  agreement — each read at an entry once, over variables, and the stored value is their composition (by unfolding).
-/
import proofs.«133834_j41154376630991_2_alg».proof.Proof.Gen.KernelIdeal.Skeleton
import proofs.«133834_j41154376630991_2_alg».proof.Proof.Routing
import proofs.«133834_j41154376630991_2_alg».proof.Proof.LibLane
import proofs.«133834_j41154376630991_2_alg».proof.Proof.LibIndexRead
import proofs.«133834_j41154376630991_2_alg».proof.Proof.LibRank3Read
import Idealize.ShloMosaic.Lib.ValueLayout

noncomputable section

open scoped BigOperators

namespace Cert.KernelIdeal.Block

open Cert.KernelIdeal Cert.KernelIdeal.Gen Idealize.ShloMosaic Idealize.ShloMosaic.ValueIdx
open Idealize.ShloMosaic.RowRead Idealize.ShloMosaic.Rank3Read

/-! ## The six moves of a round, as the body spells them -/

section Moves
variable {F : FTy → Type} [FloatOps F]

/-- Exponentials of the logits after each row's maximum is subtracted. -/
def bEx (b : FVec F S64x1152 .f32) : FVec F S64x1152 .f32 :=
  exp (subf b (broadcastTo S64x1152 (shapeCast S64x1 (multiReduction .maximumf [1] S64 b 0xFF800000#32 reduces_S64x1152_S64 (.inl rfl) rfl)
    shapeCasts_S64_S64x1) broadcasts_S64x1_S64x1152))

/-- Coupling weights: each exponential over its row's sum, kept with a middle unit axis. -/
def bCoef (e : FVec F S64x1152 .f32) : FVec F S64x1x1152 .f32 :=
  shapeCast S64x1x1152 (divf e (broadcastTo S64x1152 (shapeCast S64x1 (multiReduction .add [1] S64 e 0x00000000#32 reduces_S64x1152_S64 (.inl rfl) rfl)
    shapeCasts_S64_S64x1) broadcasts_S64x1_S64x1152)) shapeCasts_S64x1152_S64x1x1152

/-- The weighted mixture of the predictions: the weights spread over the coordinates, times the block, summed along the
    input capsules. -/
def bMix (cf : FVec F S64x1x1152 .f32) (u : FVec F S64x16x1152 .f32) : FVec F S64x16 .f32 :=
  multiReduction .add [2] S64x16 (mulf (broadcastTo S64x16x1152 cf broadcasts_S64x1x1152_S64x16x1152) u) 0x00000000#32
    reduces_S64x16x1152_S64x16 (.inl rfl) rfl

/-- The squared length of each row's mixture, kept as a column. -/
def bSq (s : FVec F S64x16 .f32) : FVec F S64x1 .f32 :=
  shapeCast S64x1 (multiReduction .add [1] S64 (mulf s s) 0x00000000#32 reduces_S64x16_S64 (.inl rfl) rfl) shapeCasts_S64_S64x1

/-- The squash of each row's mixture `s` with squared length `q`. -/
def bSquash (q : FVec F S64x1 .f32) (s : FVec F S64x16 .f32) : FVec F S64x16 .f32 :=
  divf (mulf (broadcastTo S64x16 q broadcasts_S64x1_S64x16) s)
    (broadcastTo S64x16 (mulf (addf (broadcast S64x1 (Scalar.ofBits .f32 0x3F800000#32)) q)
      (sqrt (addf q (broadcast S64x1 (Scalar.ofBits .f32 0x33D6BF95#32))))) broadcasts_S64x1_S64x16)

/-- A round's output capsule from its coupling weights. -/
def bCaps (cf : FVec F S64x1x1152 .f32) (u : FVec F S64x16x1152 .f32) : FVec F S64x16 .f32 :=
  bSquash (bSq (bMix cf u)) (bMix cf u)

/-- The logits raised by the agreement: the output spread over the input capsules, times the block, summed along the
    coordinates. -/
def bAgree (b : FVec F S64x1152 .f32) (u : FVec F S64x16x1152 .f32) (v : FVec F S64x16 .f32) : FVec F S64x1152 .f32 :=
  addf b (multiReduction .add [1] S64x1152 (mulf u (broadcastTo S64x16x1152 (shapeCast S64x16x1 v shapeCasts_S64x16_S64x16x1)
    broadcasts_S64x16x1_S64x16x1152)) 0x00000000#32 reduces_S64x16x1152_S64x1152 (.inl rfl) rfl)

/-- The logits before the first round. -/
def bZero : FVec F S64x1152 .f32 := broadcast S64x1152 (Scalar.ofBits .f32 0x00000000#32)

/-- The stored value is the three rounds composed: the first round's new logits, -/
theorem pay3_eq (v0 : Vec F S64x1x16x1152 .f32) :
    k0_pay3 v0 = bAgree bZero (k0_pay2 v0) (bCaps (bCoef (bEx bZero)) (k0_pay2 v0)) := rfl
/-- the second round's coupling weights, -/
theorem pay4_eq (v0 : Vec F S64x1x16x1152 .f32) : k0_pay4 v0 = bCoef (bEx (k0_pay3 v0)) := rfl
/-- and, from those, the second round's output, the third round's logits and the third round's output. -/
theorem pay5_eq (v1 : FVec F S64x16x1152 .f32) (v33 : FVec F S64x1152 .f32) (v43 : FVec F S64x1x1152 .f32) :
    k0_pay5 v1 v33 v43 = bCaps (bCoef (bEx (bAgree v33 v1 (bCaps v43 v1)))) v1 := rfl

end Moves

/-! ## Each move at an entry, on the extended reals -/

/-- Row `p` of a logits array. -/
def rowB (b : FVec Ideal S64x1152 .f32) (p : Fin 64) : Fin 1152 → EReal := fun i => b (ix2 p i)
/-- Row `p` of the block: the predictions `i, d ↦ u (p, d, i)`. -/
def rowU (u : FVec Ideal S64x16x1152 .f32) (p : Fin 64) : Fin 1152 → Fin 16 → EReal := fun i d => u (ix3 p d i)

theorem bEx_apply (b : FVec Ideal S64x1152 .f32) (p : Fin 64) (i : Fin 1152) :
    bEx b (ix2 p i) = Routing.ex (rowB b p) i := by
  unfold bEx
  show Ideal.exp (b (ix2 p i) - broadcastTo S64x1152 _ broadcasts_S64x1_S64x1152 (ix2 p i)) = _
  refine congrArg (fun z => Ideal.exp (b (ix2 p i) - z)) ?_
  refine (broadcastTo_a1_ab_apply _ _ p i).trans ?_
  refine (shapeCast_a_a1_apply _ _ p 0).trans ?_
  exact rowMax_apply b _ _ _ p

theorem bCoef_apply (e : FVec Ideal S64x1152 .f32) (p : Fin 64) (i : Fin 1152) :
    bCoef e (ix3 p (0 : Fin 1) i) = Ideal.div (e (ix2 p i)) (∑ k : Fin 1152, e (ix2 p k)) := by
  unfold bCoef
  refine (shapeCast_ac_a1c_apply _ _ p 0 i).trans ?_
  show Ideal.div (e (ix2 p i)) (broadcastTo S64x1152 _ broadcasts_S64x1_S64x1152 (ix2 p i)) = _
  refine congrArg (fun z => Ideal.div (e (ix2 p i)) z) ?_
  refine (broadcastTo_a1_ab_apply _ _ p i).trans ?_
  refine (shapeCast_a_a1_apply _ _ p 0).trans ?_
  exact Cert.LibLane.laneSum_apply e _ _ _ p

theorem bMix_apply (cf : FVec Ideal S64x1x1152 .f32) (u : FVec Ideal S64x16x1152 .f32) (p : Fin 64) (d : Fin 16) :
    bMix cf u (ix2 p d) = ∑ i : Fin 1152, cf (ix3 p (0 : Fin 1) i) * u (ix3 p d i) := by
  unfold bMix
  refine (sumLast_apply _ _ _ _ p d).trans ?_
  refine Finset.sum_congr rfl fun i _ => ?_
  show broadcastTo S64x16x1152 cf broadcasts_S64x1x1152_S64x16x1152 (ix3 p d i) * u (ix3 p d i) = _
  exact congrArg (fun z => z * u (ix3 p d i)) (broadcastTo_a1c_abc_apply cf _ p d i)

theorem bSq_apply (s : FVec Ideal S64x16 .f32) (p : Fin 64) :
    bSq s (ix2 p (0 : Fin 1)) = ∑ d : Fin 16, s (ix2 p d) * s (ix2 p d) := by
  unfold bSq
  refine (shapeCast_a_a1_apply _ _ p 0).trans ?_
  exact Cert.LibLane.laneSum_apply (mulf s s) _ _ _ p

theorem bSquash_apply (q : FVec Ideal S64x1 .f32) (s : FVec Ideal S64x16 .f32) (p : Fin 64) (d : Fin 16) :
    bSquash q s (ix2 p d) = Ideal.div (q (ix2 p (0 : Fin 1)) * s (ix2 p d))
      ((Routing.oneW + q (ix2 p (0 : Fin 1))) * Ideal.sqrt (q (ix2 p (0 : Fin 1)) + Routing.epsW)) := by
  unfold bSquash
  show Ideal.div (broadcastTo S64x16 q broadcasts_S64x1_S64x16 (ix2 p d) * s (ix2 p d))
    (broadcastTo S64x16 _ broadcasts_S64x1_S64x16 (ix2 p d)) = _
  rw [broadcastTo_a1_ab_apply q _ p d, broadcastTo_a1_ab_apply _ _ p d]
  rfl

theorem bAgree_apply (b : FVec Ideal S64x1152 .f32) (u : FVec Ideal S64x16x1152 .f32) (v : FVec Ideal S64x16 .f32)
    (p : Fin 64) (i : Fin 1152) :
    bAgree b u v (ix2 p i) = b (ix2 p i) + ∑ d : Fin 16, u (ix3 p d i) * v (ix2 p d) := by
  unfold bAgree
  show b (ix2 p i) + multiReduction .add [1] S64x1152 _ 0x00000000#32 reduces_S64x16x1152_S64x1152 _ _ (ix2 p i) = _
  refine congrArg (fun z => b (ix2 p i) + z) ?_
  refine (sumMiddle_apply _ _ _ _ p i).trans ?_
  refine Finset.sum_congr rfl fun d _ => ?_
  show u (ix3 p d i) * broadcastTo S64x16x1152 _ broadcasts_S64x16x1_S64x16x1152 (ix3 p d i) = _
  refine congrArg (fun z => u (ix3 p d i) * z) ?_
  refine (broadcastTo_ab1_abc_apply _ _ p d i).trans ?_
  exact shapeCast_ab_ab1_apply v _ p d 0

/-! ## A whole round at an entry, and the stored value -/

/-- The coupling weights of row `p`. -/
theorem bCoefEx_apply (b : FVec Ideal S64x1152 .f32) (p : Fin 64) (i : Fin 1152) :
    bCoef (bEx b) (ix3 p (0 : Fin 1) i) = Routing.coef (rowB b p) i := by
  rw [bCoef_apply]
  simp only [bEx_apply]
  rfl

/-- A round's output capsule of row `p`, from the row's logits and predictions. -/
theorem bCaps_apply (b : FVec Ideal S64x1152 .f32) (u : FVec Ideal S64x16x1152 .f32) (p : Fin 64) (d : Fin 16) :
    bCaps (bCoef (bEx b)) u (ix2 p d) = Routing.caps (rowB b p) (rowU u p) d := by
  unfold bCaps
  rw [bSquash_apply, bSq_apply]
  simp only [bMix_apply, bCoefEx_apply]
  rfl

/-- A round's new logits of row `p`. -/
theorem bAgreeCaps_apply (b : FVec Ideal S64x1152 .f32) (u : FVec Ideal S64x16x1152 .f32) (p : Fin 64) (i : Fin 1152) :
    bAgree b u (bCaps (bCoef (bEx b)) u) (ix2 p i) = Routing.agree (rowB b p) (rowU u p) i := by
  rw [bAgree_apply]
  simp only [bCaps_apply]
  rfl

theorem rowB_agree (b : FVec Ideal S64x1152 .f32) (u : FVec Ideal S64x16x1152 .f32) (p : Fin 64) :
    rowB (bAgree b u (bCaps (bCoef (bEx b)) u)) p = Routing.agree (rowB b p) (rowU u p) :=
  funext fun i => bAgreeCaps_apply b u p i

theorem rowB_zero (p : Fin 64) : rowB (bZero (F := Ideal)) p = Routing.b0 := rfl

/-- Row `p` of the loaded block, its unit axis dropped: the predictions `i, d ↦ x (p, 0, d, i)`. -/
theorem rowU_pay2 (x : Vec Ideal S64x1x16x1152 .f32) (p : Fin 64) :
    rowU (k0_pay2 x) p = fun (i : Fin 1152) (d : Fin 16) => x (ix4 p (0 : Fin 1) d i) := by
  funext i d
  unfold rowU k0_pay2
  exact shapeCast_a1bc_abc_apply x _ p d i

/-- THE STORED VALUE at `(0, p, d)`: coordinate `d` of three rounds of routing on row `p` of the loaded block. -/
theorem stored_apply (x : Vec Ideal S64x1x16x1152 .f32) (p : Fin 64) (d : Fin 16) :
    k0_pay1 (k0_pay5 (k0_pay2 x) (k0_pay3 x) (k0_pay4 x)) (ix3 (0 : Fin 1) p d)
      = Routing.out (fun (i : Fin 1152) (d' : Fin 16) => x (ix4 p (0 : Fin 1) d' i)) d := by
  unfold k0_pay1
  refine (shapeCast_ab_1ab_apply _ _ (0 : Fin 1) p d).trans ?_
  rw [pay5_eq, pay4_eq, pay3_eq, bCaps_apply, rowB_agree, rowB_agree, rowB_zero, rowU_pay2]
  rfl

end Cert.KernelIdeal.Block

end
-- ==== Proof.KernelValue.lean ====
/-
  From the kernel's blocks to its result array.

  The region stages the array `A : [256, 10, 16, 1152]` — the argument with its unit axis dropped and its input-capsule
  axis moved last, so `A (n, o, d, i) = U (n, i, o, d, 0)` — in blocks of 64 batch rows of one output capsule, and
  writes `[10, 256, 16]` in blocks `[1, 64, 16]`: grid point `(bt, o)` reads rows `64·bt … 64·bt + 63` of capsule `o` and
  writes the same rows of capsule `o`. By Block.lean the entry `(0, p, d)` of what a point stores is three rounds of
  routing on row `p` of its block; so every point writes a block of ONE function of `A`,
  `(o, n, d) ↦ out (i, d' ↦ A (n, o, d', i)) d`; the 40 blocks tile the output, so after the run the output IS that
  function. The two host operations after the region swap the first two axes and append a unit axis: at `(n, o, d, 0)`
  the result is that function at `(o, n, d)`, which is `Routing.whole U` there.
-/
import proofs.«133834_j41154376630991_2_alg».proof.Proof.Gen.KernelIdeal.Frame
import proofs.«133834_j41154376630991_2_alg».proof.Proof.Block
import Idealize.ShloMosaic.Lib.Pipeline.Value
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The staged array -/

/-- The array the region stages is the argument, its unit axis dropped, its axes permuted. -/
theorem staged_eq (c : Dev nD) :
    (V m c main_v1 : S256x10x16x1152.Idx → EReal)
      = transpose S256x10x16x1152 [0, 2, 3, 1]
          (shapeCast S256x1152x10x16 (m ((c : Thread nD τ).loc main_arg0)) shapeCasts_S256x1152x10x16x1_S256x1152x10x16)
          transposes_S256x1152x10x16_S256x10x16x1152_0_2_3_1 := by
  show StableHlo.after hostOps0 (fun b => m (c, b)) (Proc.devRef .tc main_v1) = _
  after_results
  rfl

/-- Read at `(n, o, d, i)` it is the argument at `(n, i, o, d, 0)`. -/
theorem staged_apply (c : Dev nD) (n : Fin 256) (o : Fin 10) (d : Fin 16) (i : Fin 1152) :
    V m c main_v1 (ix4 n o d i) = m ((c : Thread nD τ).loc main_arg0) (ix5 n i o d (0 : Fin 1)) := by
  refine (congrFun (staged_eq m c) (ix4 n o d i)).trans ?_
  refine (transpose_apply _ _ _ (ix4 n o d i) (ix4 n i o d) ?_).trans ?_
  · intro b
    match b with
    | ⟨0, _⟩ => rfl
    | ⟨1, _⟩ => rfl
    | ⟨2, _⟩ => rfl
    | ⟨3, _⟩ => rfl
  · refine shapeCast_apply _ _ (ix4 n i o d) (ix5 n i o d (0 : Fin 1)) ?_
    rw [Shape.rowMajor_val_five, Shape.rowMajor_val_four]
    show (((n.val * 1152 + i.val) * 10 + o.val) * 16 + d.val) * 1 + 0 = ((n.val * 1152 + i.val) * 10 + o.val) * 16 + d.val
    omega

/-! ## What a point writes back -/

/-- The output array as one function of the staged array: at `(o, n, d)`, coordinate `d` of three rounds of routing
    on the predictions `i, d' ↦ A (n, o, d', i)` of the pair `(n, o)`. -/
def G1 (A : S256x10x16x1152.Idx → EReal) : S10x256x16.Idx → EReal := fun y =>
  Routing.out (fun (i : Fin 1152) (d' : Fin 16) => A (ix4 (y 1 : Fin 256) (y 0 : Fin 10) d' i)) (y 2 : Fin 16)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The stored value at any entry of the block `[1, 64, 16]`. -/
theorem stored_idx (x : Vec Ideal S64x1x16x1152 .f32) (y : S1x64x16.Idx) :
    k0_pay1 (k0_pay5 (k0_pay2 x) (k0_pay3 x) (k0_pay4 x)) y
      = Routing.out (fun (i : Fin 1152) (d' : Fin 16) => x (ix4 (y 1 : Fin 64) (0 : Fin 1) d' i)) (y 2 : Fin 16) := by
  obtain ⟨u, p, d, rfl⟩ : ∃ (u : Fin 1) (p : Fin 64) (d : Fin 16), y = ix3 u p d := ⟨y 0, y 1, y 2, eq_ix3 y⟩
  obtain rfl : u = 0 := Subsingleton.elim _ _
  exact Block.stored_apply x p d

/-- The two index maps over the 40 grid points: the input block's batch tile and capsule are the output block's; the
    other block indices are zero. -/
theorem idx_facts : ∀ t : Fin cfg0.N,
    win0_0.index t (0 : Fin 4) = win0_1.index t (1 : Fin 3)
    ∧ win0_0.index t (1 : Fin 4) = win0_1.index t (0 : Fin 3)
    ∧ win0_0.index t (2 : Fin 4) = 0
    ∧ win0_0.index t (3 : Fin 4) = 0
    ∧ win0_1.index t (2 : Fin 3) = 0
    ∧ win0_1.index t (0 : Fin 3) ≤ 9
    ∧ win0_1.index t (1 : Fin 3) ≤ 3 :=
  (by decide +kernel : ∀ t : Fin grid0.N, _)

/-- WHAT POINT `t` WRITES BACK is block `t` of `G1` of the staged array. -/
theorem flushed1_eq (c : Dev nD) (t : Fin cfg0.N) :
    (dats m 0 c).flushed 1 t = ((cfg0.win 1).blk t).view.read (Elt Ideal) (G1 (V m c main_v1)) := by
  show (cfg0.win 1).cut (grid0.coords t) ((dats m 0 c).after 1 t) = _
  rw [after0_1]
  unfold out0_1
  rw [View.canon_unit_zero hz3]
  simp only [View.ld_unit_zero (S := S64x1x16x1152) hz4]
  obtain ⟨e0, e1, e2, e3, e4, e5, e6⟩ := idx_facts t
  funext j
  show k0_pay1 (k0_pay5 (k0_pay2 (iblk m c 0 t)) (k0_pay3 (iblk m c 0 t)) (k0_pay4 (iblk m c 0 t))) j
    = G1 (V m c main_v1) (((cfg0.win 1).blk t).view.emb j)
  refine (stored_idx (iblk m c 0 t) j).trans ?_
  unfold G1
  refine congr (congrArg Routing.out (funext fun i => funext fun d' => ?_)) (Fin.ext ?_)
  · show V m c main_v1 (((cfg0.win 0).blk t).view.emb (ix4 (j 1 : Fin 64) (0 : Fin 1) d' i)) = _
    refine congrArg (V m c main_v1) (funext fun a => Fin.ext ?_)
    match a with
    | ⟨0, _⟩ =>
      show win0_0.index t (0 : Fin 4) * 64 + 1 * (j 1).val = win0_1.index t (1 : Fin 3) * 64 + 1 * (j 1).val
      omega
    | ⟨1, _⟩ =>
      show win0_0.index t (1 : Fin 4) * 1 + 1 * 0 = win0_1.index t (0 : Fin 3) * 1 + 1 * (j 0).val
      have hj : (j 0).val < 1 := (j 0).isLt
      omega
    | ⟨2, _⟩ =>
      show win0_0.index t (2 : Fin 4) * 16 + 1 * d'.val = d'.val
      omega
    | ⟨3, _⟩ =>
      show win0_0.index t (3 : Fin 4) * 1152 + 1 * i.val = i.val
      omega
  · show (j 2).val = win0_1.index t (2 : Fin 3) * 16 + 1 * (j 2).val
    omega

/-! ## The output array after the run -/

/-- An index of the output array is in point `t`'s block iff each coordinate is in the block's range on its axis. -/
theorem mem_blk1 (t : Fin cfg0.N) (i : S10x256x16.Idx) :
    i ∈ ((cfg0.win 1).blk t).view.set ↔ ∀ a : Fin 3, win0_1.index t a * S1x64x16.size a ≤ (i a).val
      ∧ (i a).val < win0_1.index t a * S1x64x16.size a + S1x64x16.size a := by
  show i ∈ ((View.whole main_v2).slice (win0_1.rect t)).set ↔ _
  rw [View.set_slice_whole, Rect.mem_set_unit]
  exact Iff.rfl

/-- Every (capsule, batch tile) pair is some point's output block. -/
theorem idx_onto : ∀ (q0 : Fin 10) (q1 : Fin 4), ∃ t : Fin cfg0.N, win0_1.index t = ![q0.val, q1.val, 0] :=
  (by decide +kernel : ∀ (q0 : Fin 10) (q1 : Fin 4), ∃ t : Fin grid0.N, win0_1.index t = ![q0.val, q1.val, 0])

/-- The blocks tile the output: the entry `(o, n, d)` is in the block of capsule `o` and batch tile `n / 64`. -/
theorem cover1 (i : S10x256x16.Idx) :
    ∃ t : Fin cfg0.N, (cfg0.win 1).flush t = true ∧ i ∈ ((cfg0.win 1).blk t).view.set := by
  have hi0 : (i 0).val < 10 := (i 0).isLt
  have hi1 : (i 1).val < 256 := (i 1).isLt
  have hi2 : (i 2).val < 16 := (i 2).isLt
  obtain ⟨t, ht⟩ := idx_onto ⟨(i 0).val, hi0⟩ ⟨(i 1).val / 64, by omega⟩
  have q0 : win0_1.index t (0 : Fin 3) = (i 0).val := congrFun ht 0
  have q1 : win0_1.index t (1 : Fin 3) = (i 1).val / 64 := congrFun ht 1
  have q2 : win0_1.index t (2 : Fin 3) = 0 := congrFun ht 2
  refine ⟨t, flush0_1 t, ?_⟩
  rw [mem_blk1]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 64 ≤ (i 1).val ∧ (i 1).val < win0_1.index t (1 : Fin 3) * 64 + 64
    omega
  | ⟨2, _⟩ =>
    show win0_1.index t (2 : Fin 3) * 16 ≤ (i 2).val ∧ (i 2).val < win0_1.index t (2 : Fin 3) * 16 + 16
    omega

/-- THE OUTPUT ARRAY after the run is `G1` of the staged array. -/
theorem final1 (c : Dev nD) : (dats m 0 c).arrAt 1 cfg0.N = G1 (V m c main_v1) :=
  (dats m 0 c).arrAt_eq_of_cover 1 (G1 (V m c main_v1)) (fun t _ => flushed1_eq m c t) cover1

/-! ## The host operations after the region, and the run -/

/-- @main's result is the output array with its first two axes swapped and a unit axis appended. -/
theorem tail_eq (c : Dev nD) :
    (Pipeline.afterTail₀ cfgs (dats m) 0 (V0 m) [hostOps1] c main_v4 : S256x10x16x1.Idx → EReal)
      = broadcastInDim S256x10x16x1 ![0, 1, 2] bcast_S256x10x16_S256x10x16x1_0_1_2
          (transpose S256x10x16 [1, 0, 2] ((dats m 0 c).arrAt 1 cfg0.N) transposes_S10x256x16_S256x10x16_1_0_2) := by
  unfold Pipeline.afterTail₀
  show StableHlo.after hostOps1 _ (Proc.devRef .tc main_v4) = _
  after_results
  exact congrArg (fun z => broadcastInDim S256x10x16x1 ![0, 1, 2] bcast_S256x10x16_S256x10x16x1_0_1_2
      (transpose S256x10x16 [1, 0, 2] z transposes_S10x256x16_S256x10x16_1_0_2))
    (Pipeline.withArrays_arr spec0 launch0.win.arr_inj c _ _ 1)

/-- THE RESULT is `Routing.whole` of the argument: at `(n, o, d, 0)` the output array at `(o, n, d)`, which is three rounds
    of routing on `i, d' ↦ A (n, o, d', i) = U (n, i, o, d', 0)`. -/
theorem result_eq (c : Dev nD) :
    (Pipeline.afterTail₀ cfgs (dats m) 0 (V0 m) [hostOps1] c main_v4 : S256x10x16x1.Idx → EReal)
      = Routing.whole (m ((c : Thread nD τ).loc main_arg0)) := by
  rw [tail_eq, final1]
  funext j
  obtain ⟨n, o, d, u, rfl⟩ : ∃ (n : Fin 256) (o : Fin 10) (d : Fin 16) (u : Fin 1), j = ix4 n o d u :=
    ⟨j 0, j 1, j 2, j 3, eq_ix4 j⟩
  obtain rfl : u = 0 := Subsingleton.elim _ _
  refine (broadcastInDim_apply _ _ _ (ix4 n o d (0 : Fin 1)) (ix3 n o d) ?_).trans ?_
  · intro a
    match a with
    | ⟨0, _⟩ => rfl
    | ⟨1, _⟩ => rfl
    | ⟨2, _⟩ => rfl
  refine (transpose_apply _ _ _ (ix3 n o d) (ix3 o n d) ?_).trans ?_
  · intro b
    match b with
    | ⟨0, _⟩ => rfl
    | ⟨1, _⟩ => rfl
    | ⟨2, _⟩ => rfl
  show Routing.out (fun (i : Fin 1152) (d' : Fin 16) => V m c main_v1 (ix4 n o d' i)) d
    = Routing.out (fun (i : Fin 1152) (d' : Fin 16) => m ((c : Thread nD τ).loc main_arg0) (ix5 n i o d' (0 : Fin 1))) d
  exact congrArg (fun f => Routing.out f d) (funext fun i => funext fun d' => staged_apply m c n o d' i)

/-- THE KERNEL'S RUN: every weakly fair execution terminates with @main's result at `Routing.whole` of the argument, the
    argument unchanged. -/
theorem run : θ_run (defs (F := Ideal)) (onTc (τ := τ) (main (F := Ideal))) ⟨m, fun _ => 0, ρ⟩ fun r => ∀ c : Dev nD,
      r.2.mem ((c.tc : Thread nD τ).loc main_v4) = Routing.whole (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c)⟩)
    (run_main m ρ)

end Cert.KernelIdeal.Arrays

end
-- ==== Proof.RefValue.lean ====
/-
  The reference's side of the routing certificate: what the reference program's run leaves in its result array is
  three rounds of routing by agreement on the argument array, pair by pair.

  The reference is a straight line of array operations over the shapes [256, 1152, 10, 16, 1] (batch row, input
  capsule, output capsule, coordinate, a unit axis) and its contractions. One round is five array expressions: the
  softmax numerators of the logits over the input capsules (the largest logit subtracted first), the mixture of the
  predictions weighted by the numerators over their sum, the squared length of the mixture, the squash quotient, and
  the logits raised by the inner product of each prediction with the squashed output. The program spells these five
  expressions three times, from zero logits, and ends with the third round's squashed output under a change of shape
  that drops the unit input-capsule axis.

  Each expression is named below as a function of its operand arrays (the patterns), and read at one pair
  (batch row n, output capsule o): a broadcast reads its operand at the index with the new axes dropped, a sum over one
  axis is the finite sum over that axis's coordinates from the zero word, the maximum over the input capsules is the
  finite maximum from minus infinity. Read so, every pattern is the corresponding formula of one pair's routing
  (the stage lemmas), a round's patterns composed are a round of routing (the round lemmas), and the program's named
  sub-terms, which are the patterns applied to one another, are three rounds (the chain). The final change of shape
  keeps the row-major position, so the result at (n, o, d, 0) is coordinate d of the pair (n, o): the whole result is the
  routing of the argument, and the run's conclusion is restated with it.
-/
import proofs.«133834_j41154376630991_2_alg».proof.Proof.Gen.ReferenceIdeal.Run
import proofs.«133834_j41154376630991_2_alg».proof.Proof.Routing
import Idealize.ShloMosaic.Lib.ValueIdx
import Idealize.ShloMosaic.Lib.IdealHost
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.StableHlo Idealize.ShloMosaic.ValueIdx

namespace Cert.ReferenceIdeal.RefValue

open Cert.ReferenceIdeal Cert.ReferenceIdeal.Gen Cert.ReferenceIdeal.Value

/-! ## The five array patterns of one round

The reference's program repeats five array expressions three times. Each is named here as a function of its operand
arrays, spelt exactly as the program's composed term spells it, so that the composed term of a round is these
functions applied to one another. -/

/-- The softmax numerators of an array of logits: the exponential of each logit less its row's largest (the maximum
    over the input capsules, taken from minus infinity and once more with minus infinity). -/
def patEx (b : FVec Ideal S256x1152x10x1x1 .f32) : FVec Ideal S256x1152x10x1x1 .f32 :=
  Host.exp (subf b (broadcastInDim S256x1152x10x1x1 ![0, 1, 2, 3, 4] bcast_S256x1x10x1x1_S256x1152x10x1x1_0_1_2_3_4 (broadcastInDim S256x1x10x1x1 ![0, 2, 3, 4] bcast_S256x10x1x1_S256x1x10x1x1_0_2_3_4 (maximumf (broadcastInDim S256x10x1x1 ![] bcast_S_S256x10x1x1 (constant S_ .f32 0xFF800000#32)) (Host.reduce FloatOps.maximumf b (constant S_ .f32 0xFF800000#32) reducesTo_S256x1152x10x1x1_S256x10x1x1_d1 h_S_)))))

/-- The weighted mixtures: the numerators over their row's sum, times the predictions, summed over the input
    capsules. -/
def patMix (e : FVec Ideal S256x1152x10x1x1 .f32) (u : FVec Ideal S256x1152x10x16x1 .f32) : FVec Ideal S256x1x10x16x1 .f32 :=
  broadcastInDim S256x1x10x16x1 ![0, 2, 3, 4] bcast_S256x10x16x1_S256x1x10x16x1_0_2_3_4 (Host.reduceAdd (mulf (broadcastInDim S256x1152x10x16x1 ![0, 1, 2, 3, 4] bcast_S256x1152x10x1x1_S256x1152x10x16x1_0_1_2_3_4 (Host.divf e (broadcastInDim S256x1152x10x1x1 ![0, 1, 2, 3, 4] bcast_S256x1x10x1x1_S256x1152x10x1x1_0_1_2_3_4 (broadcastInDim S256x1x10x1x1 ![0, 2, 3, 4] bcast_S256x10x1x1_S256x1x10x1x1_0_2_3_4 (Host.reduceAdd e (constant S_ .f32 0x00000000#32) reducesTo_S256x1152x10x1x1_S256x10x1x1_d1 h_S_))))) u) (constant S_ .f32 0x00000000#32) reducesTo_S256x1152x10x16x1_S256x10x16x1_d1 h_S_)

/-- The squared lengths: the sum of the squares over the coordinates. -/
def patSq (s : FVec Ideal S256x1x10x16x1 .f32) : FVec Ideal S256x1x10x1x1 .f32 :=
  broadcastInDim S256x1x10x1x1 ![0, 1, 2, 4] bcast_S256x1x10x1_S256x1x10x1x1_0_1_2_4 (Host.reduceAdd (mulf s s) (constant S_ .f32 0x00000000#32) reducesTo_S256x1x10x16x1_S256x1x10x1_d3 h_S_)

/-- The squash quotient of a vector array `s` with squared lengths `q`. -/
def patSquash (q : FVec Ideal S256x1x10x1x1 .f32) (s : FVec Ideal S256x1x10x16x1 .f32) : FVec Ideal S256x1x10x16x1 .f32 :=
  Host.divf (mulf (broadcastInDim S256x1x10x16x1 ![0, 1, 2, 3, 4] bcast_S256x1x10x1x1_S256x1x10x16x1_0_1_2_3_4 q) s) (broadcastInDim S256x1x10x16x1 ![0, 1, 2, 3, 4] bcast_S256x1x10x1x1_S256x1x10x16x1_0_1_2_3_4 (mulf (addf (broadcastInDim S256x1x10x1x1 ![] bcast_S_S256x1x10x1x1 (constant S_ .f32 0x3F800000#32)) q) (Host.sqrt (addf q (broadcastInDim S256x1x10x1x1 ![] bcast_S_S256x1x10x1x1 (constant S_ .f32 0x33D6BF95#32))))))

/-- The raised logits: each logit plus the inner product of its prediction with the output vector `v`. -/
def patAgree (b : FVec Ideal S256x1152x10x1x1 .f32) (u : FVec Ideal S256x1152x10x16x1 .f32) (v : FVec Ideal S256x1x10x16x1 .f32) :
    FVec Ideal S256x1152x10x1x1 .f32 :=
  addf b (broadcastInDim S256x1152x10x1x1 ![0, 1, 2, 4] bcast_S256x1152x10x1_S256x1152x10x1x1_0_1_2_4 (Host.reduceAdd (mulf u (broadcastInDim S256x1152x10x16x1 ![0, 1, 2, 3, 4] bcast_S256x1x10x16x1_S256x1152x10x16x1_0_1_2_3_4 v)) (constant S_ .f32 0x00000000#32) reducesTo_S256x1152x10x16x1_S256x1152x10x1_d3 h_S_))

/-! ## Each pattern read at a pair (batch row `n`, output capsule `o`) -/

/-- The zero word a host sum starts from is the extended real zero. -/
theorem zero_init : (constant (F := Ideal) S_ .f32 0x00000000#32) (Shape.Idx.first h_S_) = 0 := Ideal.ofBits_zero_f32

/-- The softmax numerator: the exponential of a logit less the row's largest, at input capsule `i` of the pair
    `(n, o)`. -/
theorem stage_ex (b : FVec Ideal S256x1152x10x1x1 .f32) (n : Fin 256) (i : Fin 1152) (o : Fin 10) :
    patEx b (ix5 n i o (0 : Fin 1) (0 : Fin 1)) = Cert.Routing.ex (fun i' : Fin 1152 => b (ix5 n i' o (0 : Fin 1) (0 : Fin 1))) i := by
  unfold patEx
  refine congrArg (fun t => Ideal.exp (b (ix5 n i o (0 : Fin 1) (0 : Fin 1)) - t)) ?_
  refine (broadcastInDim_apply _ _ _ (ix5 n i o (0 : Fin 1) (0 : Fin 1)) (ix5 n (0 : Fin 1) o (0 : Fin 1) (0 : Fin 1))
    (fun a => match a with | ⟨0, _⟩ => rfl | ⟨1, _⟩ => rfl | ⟨2, _⟩ => rfl | ⟨3, _⟩ => rfl | ⟨4, _⟩ => rfl)).trans ?_
  refine (broadcastInDim_apply _ _ _ (ix5 n (0 : Fin 1) o (0 : Fin 1) (0 : Fin 1)) (ix4 n o (0 : Fin 1) (0 : Fin 1))
    (fun a => match a with | ⟨0, _⟩ => rfl | ⟨1, _⟩ => rfl | ⟨2, _⟩ => rfl | ⟨3, _⟩ => rfl)).trans ?_
  have h : S256x1152x10x1x1.Reduces [1] S256x10x1x1 := by decide
  have hl : ∀ k : Fin 1152, h.lift (ix4 n o (0 : Fin 1) (0 : Fin 1)) k = ix5 n k o (0 : Fin 1) (0 : Fin 1) := fun k =>
    funext fun c => match c with
      | ⟨0, _⟩ => Fin.ext rfl | ⟨1, _⟩ => Fin.ext rfl | ⟨2, _⟩ => Fin.ext rfl | ⟨3, _⟩ => Fin.ext rfl | ⟨4, _⟩ => Fin.ext rfl
  have hB : Host.reduce FloatOps.maximumf b (constant (F := Ideal) S_ .f32 0xFF800000#32)
      reducesTo_S256x1152x10x1x1_S256x10x1x1_d1 h_S_ (ix4 n o (0 : Fin 1) (0 : Fin 1))
      = Cert.Routing.top (fun i' : Fin 1152 => b (ix5 n i' o (0 : Fin 1) (0 : Fin 1))) :=
    (Host.reduce_eq_fold_single FloatOps.maximumf b _ reducesTo_S256x1152x10x1x1_S256x10x1x1_d1 h h_S_
      (ix4 n o (0 : Fin 1) (0 : Fin 1))).trans
      (congrArg (Finset.univ.fold max Cert.Routing.ninfW) (funext fun k => congrArg b (hl k)))
  refine (maximumf_apply _ _ _).trans ?_
  rw [hB]
  exact Cert.Routing.max_ninf_top _

/-- The softmax denominator: the sum of the numerators over the input capsules, read anywhere in the row. -/
theorem stage_den (e : FVec Ideal S256x1152x10x1x1 .f32) (n : Fin 256) (i : Fin 1152) (o : Fin 10) :
    broadcastInDim S256x1152x10x1x1 ![0, 1, 2, 3, 4] bcast_S256x1x10x1x1_S256x1152x10x1x1_0_1_2_3_4
      (broadcastInDim S256x1x10x1x1 ![0, 2, 3, 4] bcast_S256x10x1x1_S256x1x10x1x1_0_2_3_4
        (Host.reduceAdd (F := Ideal) e (constant (F := Ideal) S_ .f32 0x00000000#32)
          reducesTo_S256x1152x10x1x1_S256x10x1x1_d1 h_S_))
      (ix5 n i o (0 : Fin 1) (0 : Fin 1))
    = ∑ k : Fin 1152, e (ix5 n k o (0 : Fin 1) (0 : Fin 1)) := by
  refine (broadcastInDim_apply _ _ _ (ix5 n i o (0 : Fin 1) (0 : Fin 1)) (ix5 n (0 : Fin 1) o (0 : Fin 1) (0 : Fin 1))
    (fun a => match a with | ⟨0, _⟩ => rfl | ⟨1, _⟩ => rfl | ⟨2, _⟩ => rfl | ⟨3, _⟩ => rfl | ⟨4, _⟩ => rfl)).trans ?_
  refine (broadcastInDim_apply _ _ _ (ix5 n (0 : Fin 1) o (0 : Fin 1) (0 : Fin 1)) (ix4 n o (0 : Fin 1) (0 : Fin 1))
    (fun a => match a with | ⟨0, _⟩ => rfl | ⟨1, _⟩ => rfl | ⟨2, _⟩ => rfl | ⟨3, _⟩ => rfl)).trans ?_
  have h : S256x1152x10x1x1.Reduces [1] S256x10x1x1 := by decide
  have hl : ∀ k : Fin 1152, h.lift (ix4 n o (0 : Fin 1) (0 : Fin 1)) k = ix5 n k o (0 : Fin 1) (0 : Fin 1) := fun k =>
    funext fun c => match c with
      | ⟨0, _⟩ => Fin.ext rfl | ⟨1, _⟩ => Fin.ext rfl | ⟨2, _⟩ => Fin.ext rfl | ⟨3, _⟩ => Fin.ext rfl | ⟨4, _⟩ => Fin.ext rfl
  refine (hostReduceAdd_apply e _ _ h_S_ _).trans ?_
  refine (Ideal.hostReduceAdd_single reducesTo_S256x1152x10x1x1_S256x10x1x1_d1 h e _ _).trans ?_
  rw [zero_init, zero_add]
  exact Finset.sum_congr rfl fun k _ => congrArg e (hl k)

/-- The weighted mixture of the predictions: coordinate `d` of the pair `(n, o)`, each prediction weighted by its
    numerator over the row's sum. -/
theorem stage_mix (e : FVec Ideal S256x1152x10x1x1 .f32) (u : FVec Ideal S256x1152x10x16x1 .f32)
    (n : Fin 256) (o : Fin 10) (d : Fin 16) :
    patMix e u (ix5 n (0 : Fin 1) o d (0 : Fin 1))
    = ∑ i : Fin 1152, Ideal.div (e (ix5 n i o (0 : Fin 1) (0 : Fin 1))) (∑ k : Fin 1152, e (ix5 n k o (0 : Fin 1) (0 : Fin 1)))
        * u (ix5 n i o d (0 : Fin 1)) := by
  unfold patMix
  refine (broadcastInDim_apply _ _ _ (ix5 n (0 : Fin 1) o d (0 : Fin 1)) (ix4 n o d (0 : Fin 1))
    (fun a => match a with | ⟨0, _⟩ => rfl | ⟨1, _⟩ => rfl | ⟨2, _⟩ => rfl | ⟨3, _⟩ => rfl)).trans ?_
  have h : S256x1152x10x16x1.Reduces [1] S256x10x16x1 := by decide
  have hl : ∀ k : Fin 1152, h.lift (ix4 n o d (0 : Fin 1)) k = ix5 n k o d (0 : Fin 1) := fun k =>
    funext fun c => match c with
      | ⟨0, _⟩ => Fin.ext rfl | ⟨1, _⟩ => Fin.ext rfl | ⟨2, _⟩ => Fin.ext rfl | ⟨3, _⟩ => Fin.ext rfl | ⟨4, _⟩ => Fin.ext rfl
  refine (hostReduceAdd_apply _ _ _ h_S_ _).trans ?_
  refine (Ideal.hostReduceAdd_single reducesTo_S256x1152x10x16x1_S256x10x16x1_d1 h _ _ _).trans ?_
  rw [zero_init, zero_add]
  refine Finset.sum_congr rfl fun k _ => ?_
  refine (congrArg (mulf _ u) (hl k)).trans ?_
  refine (mulf_apply _ _ _).trans ?_
  refine congrArg (· * u (ix5 n k o d (0 : Fin 1))) ?_
  refine (broadcastInDim_apply _ _ _ (ix5 n k o d (0 : Fin 1)) (ix5 n k o (0 : Fin 1) (0 : Fin 1))
    (fun a => match a with | ⟨0, _⟩ => rfl | ⟨1, _⟩ => rfl | ⟨2, _⟩ => rfl | ⟨3, _⟩ => rfl | ⟨4, _⟩ => rfl)).trans ?_
  refine (hostDivf_apply _ _ _).trans ?_
  exact congrArg (Ideal.div (e (ix5 n k o (0 : Fin 1) (0 : Fin 1)))) (stage_den e n k o)

/-- The squared length of the pair's vector. -/
theorem stage_sq (s : FVec Ideal S256x1x10x16x1 .f32) (n : Fin 256) (o : Fin 10) :
    patSq s (ix5 n (0 : Fin 1) o (0 : Fin 1) (0 : Fin 1)) = Cert.Routing.sq (fun d : Fin 16 => s (ix5 n (0 : Fin 1) o d (0 : Fin 1))) := by
  unfold patSq
  refine (broadcastInDim_apply _ _ _ (ix5 n (0 : Fin 1) o (0 : Fin 1) (0 : Fin 1)) (ix4 n (0 : Fin 1) o (0 : Fin 1))
    (fun a => match a with | ⟨0, _⟩ => rfl | ⟨1, _⟩ => rfl | ⟨2, _⟩ => rfl | ⟨3, _⟩ => rfl)).trans ?_
  have h : S256x1x10x16x1.Reduces [3] S256x1x10x1 := by decide
  have hl : ∀ k : Fin 16, h.lift (ix4 n (0 : Fin 1) o (0 : Fin 1)) k = ix5 n (0 : Fin 1) o k (0 : Fin 1) := fun k =>
    funext fun c => match c with
      | ⟨0, _⟩ => Fin.ext rfl | ⟨1, _⟩ => Fin.ext rfl | ⟨2, _⟩ => Fin.ext rfl | ⟨3, _⟩ => Fin.ext rfl | ⟨4, _⟩ => Fin.ext rfl
  refine (hostReduceAdd_apply _ _ _ h_S_ _).trans ?_
  refine (Ideal.hostReduceAdd_single reducesTo_S256x1x10x16x1_S256x1x10x1_d3 h _ _ _).trans ?_
  rw [zero_init, zero_add]
  refine Finset.sum_congr rfl fun k _ => ?_
  exact (congrArg (mulf s s) (hl k)).trans (mulf_apply _ _ _)

/-- The squash quotient: the squared length times the coordinate, over one plus the squared length times the root
    of the squared length plus the small constant. -/
theorem stage_squash (q : FVec Ideal S256x1x10x1x1 .f32) (s : FVec Ideal S256x1x10x16x1 .f32)
    (n : Fin 256) (o : Fin 10) (d : Fin 16) :
    patSquash q s (ix5 n (0 : Fin 1) o d (0 : Fin 1))
    = Ideal.div (q (ix5 n (0 : Fin 1) o (0 : Fin 1) (0 : Fin 1)) * s (ix5 n (0 : Fin 1) o d (0 : Fin 1)))
        ((Cert.Routing.oneW + q (ix5 n (0 : Fin 1) o (0 : Fin 1) (0 : Fin 1)))
          * Ideal.sqrt (q (ix5 n (0 : Fin 1) o (0 : Fin 1) (0 : Fin 1)) + Cert.Routing.epsW)) := by
  unfold patSquash
  refine (hostDivf_apply _ _ _).trans ?_
  refine congrArg₂ Ideal.div ?_ ?_
  · refine (mulf_apply _ _ _).trans ?_
    refine congrArg (· * s (ix5 n (0 : Fin 1) o d (0 : Fin 1))) ?_
    exact broadcastInDim_apply _ _ _ (ix5 n (0 : Fin 1) o d (0 : Fin 1)) (ix5 n (0 : Fin 1) o (0 : Fin 1) (0 : Fin 1))
      (fun a => match a with | ⟨0, _⟩ => rfl | ⟨1, _⟩ => rfl | ⟨2, _⟩ => rfl | ⟨3, _⟩ => rfl | ⟨4, _⟩ => rfl)
  · refine (broadcastInDim_apply _ _ _ (ix5 n (0 : Fin 1) o d (0 : Fin 1)) (ix5 n (0 : Fin 1) o (0 : Fin 1) (0 : Fin 1))
      (fun a => match a with | ⟨0, _⟩ => rfl | ⟨1, _⟩ => rfl | ⟨2, _⟩ => rfl | ⟨3, _⟩ => rfl | ⟨4, _⟩ => rfl)).trans ?_
    rfl

/-- The new logit: the old one raised by the inner product of the capsule's prediction with the round's output. -/
theorem stage_agree (b : FVec Ideal S256x1152x10x1x1 .f32) (u : FVec Ideal S256x1152x10x16x1 .f32)
    (v : FVec Ideal S256x1x10x16x1 .f32) (n : Fin 256) (i : Fin 1152) (o : Fin 10) :
    patAgree b u v (ix5 n i o (0 : Fin 1) (0 : Fin 1))
    = b (ix5 n i o (0 : Fin 1) (0 : Fin 1)) + ∑ d : Fin 16, u (ix5 n i o d (0 : Fin 1)) * v (ix5 n (0 : Fin 1) o d (0 : Fin 1)) := by
  unfold patAgree
  refine (addf_apply _ _ _).trans ?_
  refine congrArg (b (ix5 n i o (0 : Fin 1) (0 : Fin 1)) + ·) ?_
  refine (broadcastInDim_apply _ _ _ (ix5 n i o (0 : Fin 1) (0 : Fin 1)) (ix4 n i o (0 : Fin 1))
    (fun a => match a with | ⟨0, _⟩ => rfl | ⟨1, _⟩ => rfl | ⟨2, _⟩ => rfl | ⟨3, _⟩ => rfl)).trans ?_
  have h : S256x1152x10x16x1.Reduces [3] S256x1152x10x1 := by decide
  have hl : ∀ k : Fin 16, h.lift (ix4 n i o (0 : Fin 1)) k = ix5 n i o k (0 : Fin 1) := fun k =>
    funext fun c => match c with
      | ⟨0, _⟩ => Fin.ext rfl | ⟨1, _⟩ => Fin.ext rfl | ⟨2, _⟩ => Fin.ext rfl | ⟨3, _⟩ => Fin.ext rfl | ⟨4, _⟩ => Fin.ext rfl
  refine (hostReduceAdd_apply _ _ _ h_S_ _).trans ?_
  refine (Ideal.hostReduceAdd_single reducesTo_S256x1152x10x16x1_S256x1152x10x1_d3 h _ _ _).trans ?_
  rw [zero_init, zero_add]
  refine Finset.sum_congr rfl fun k _ => ?_
  refine (congrArg (mulf u _) (hl k)).trans ?_
  refine (mulf_apply _ _ _).trans ?_
  refine congrArg (u (ix5 n i o k (0 : Fin 1)) * ·) ?_
  exact broadcastInDim_apply _ _ _ (ix5 n i o k (0 : Fin 1)) (ix5 n (0 : Fin 1) o k (0 : Fin 1))
    (fun a => match a with | ⟨0, _⟩ => rfl | ⟨1, _⟩ => rfl | ⟨2, _⟩ => rfl | ⟨3, _⟩ => rfl | ⟨4, _⟩ => rfl)

/-! ## One round at a pair, from what its operands read there -/

section Round
variable (n : Fin 256) (o : Fin 10)

/-- Numerators: if the logits of the pair read as `bb`, the numerators read as its exponentials. -/
theorem ex_of (b : FVec Ideal S256x1152x10x1x1 .f32) (bb : Fin 1152 → EReal)
    (hb : ∀ i : Fin 1152, b (ix5 n i o (0 : Fin 1) (0 : Fin 1)) = bb i) (i : Fin 1152) :
    patEx b (ix5 n i o (0 : Fin 1) (0 : Fin 1)) = Cert.Routing.ex bb i :=
  (stage_ex b n i o).trans (congrArg (fun f => Cert.Routing.ex f i) (funext hb))

/-- Mixture: if the numerators of the pair read as the exponentials of `bb`, the mixture is the weighted mixture of
    the pair's predictions. -/
theorem mix_of (e : FVec Ideal S256x1152x10x1x1 .f32) (u : FVec Ideal S256x1152x10x16x1 .f32) (bb : Fin 1152 → EReal)
    (he : ∀ i : Fin 1152, e (ix5 n i o (0 : Fin 1) (0 : Fin 1)) = Cert.Routing.ex bb i) (d : Fin 16) :
    patMix e u (ix5 n (0 : Fin 1) o d (0 : Fin 1))
      = Cert.Routing.mix bb (fun (i : Fin 1152) (d' : Fin 16) => u (ix5 n i o d' (0 : Fin 1))) d := by
  refine (stage_mix e u n o d).trans ?_
  have hsum : ∑ k : Fin 1152, e (ix5 n k o (0 : Fin 1) (0 : Fin 1)) = ∑ k : Fin 1152, Cert.Routing.ex bb k :=
    Finset.sum_congr rfl fun k _ => he k
  rw [hsum]
  exact Finset.sum_congr rfl fun i _ => by rw [he i]; rfl

/-- Squared length: if the vector of the pair reads as `S`, the squared length is its squared length. -/
theorem sq_of (s : FVec Ideal S256x1x10x16x1 .f32) (S : Fin 16 → EReal)
    (hs : ∀ d : Fin 16, s (ix5 n (0 : Fin 1) o d (0 : Fin 1)) = S d) :
    patSq s (ix5 n (0 : Fin 1) o (0 : Fin 1) (0 : Fin 1)) = Cert.Routing.sq S :=
  (stage_sq s n o).trans (congrArg Cert.Routing.sq (funext hs))

/-- Squash: with the vector `S` and its squared length, the quotient is the squash of `S`. -/
theorem squash_of (q : FVec Ideal S256x1x10x1x1 .f32) (s : FVec Ideal S256x1x10x16x1 .f32) (S : Fin 16 → EReal)
    (hq : q (ix5 n (0 : Fin 1) o (0 : Fin 1) (0 : Fin 1)) = Cert.Routing.sq S)
    (hs : ∀ d : Fin 16, s (ix5 n (0 : Fin 1) o d (0 : Fin 1)) = S d) (d : Fin 16) :
    patSquash q s (ix5 n (0 : Fin 1) o d (0 : Fin 1)) = Cert.Routing.squash S d := by
  refine (stage_squash q s n o d).trans ?_
  rw [hq, hs d]
  rfl

/-- Agreement: with logits `bb` and output vector `vv`, each logit is raised by the inner product. -/
theorem agree_of (b : FVec Ideal S256x1152x10x1x1 .f32) (u : FVec Ideal S256x1152x10x16x1 .f32)
    (v : FVec Ideal S256x1x10x16x1 .f32) (bb : Fin 1152 → EReal) (vv : Fin 16 → EReal)
    (hb : ∀ i : Fin 1152, b (ix5 n i o (0 : Fin 1) (0 : Fin 1)) = bb i)
    (hv : ∀ d : Fin 16, v (ix5 n (0 : Fin 1) o d (0 : Fin 1)) = vv d) (i : Fin 1152) :
    patAgree b u v (ix5 n i o (0 : Fin 1) (0 : Fin 1)) = bb i + ∑ d : Fin 16, u (ix5 n i o d (0 : Fin 1)) * vv d := by
  refine (stage_agree b u v n i o).trans ?_
  rw [hb i]
  exact congrArg (bb i + ·) (Finset.sum_congr rfl fun d _ => by rw [hv d])

/-- A whole round's output capsule at the pair: the squash of the mixture. -/
theorem round_caps (b : FVec Ideal S256x1152x10x1x1 .f32) (u : FVec Ideal S256x1152x10x16x1 .f32) (bb : Fin 1152 → EReal)
    (hb : ∀ i : Fin 1152, b (ix5 n i o (0 : Fin 1) (0 : Fin 1)) = bb i) (d : Fin 16) :
    patSquash (patSq (patMix (patEx b) u)) (patMix (patEx b) u) (ix5 n (0 : Fin 1) o d (0 : Fin 1))
      = Cert.Routing.caps bb (fun (i : Fin 1152) (d' : Fin 16) => u (ix5 n i o d' (0 : Fin 1))) d :=
  squash_of n o _ _ _
    (sq_of n o _ _ fun d' => mix_of n o _ u bb (ex_of n o b bb hb) d')
    (fun d' => mix_of n o _ u bb (ex_of n o b bb hb) d') d

/-- A whole round's new logits at the pair. -/
theorem round_agree (b : FVec Ideal S256x1152x10x1x1 .f32) (u : FVec Ideal S256x1152x10x16x1 .f32) (bb : Fin 1152 → EReal)
    (hb : ∀ i : Fin 1152, b (ix5 n i o (0 : Fin 1) (0 : Fin 1)) = bb i) (i : Fin 1152) :
    patAgree b u (patSquash (patSq (patMix (patEx b) u)) (patMix (patEx b) u)) (ix5 n i o (0 : Fin 1) (0 : Fin 1))
      = Cert.Routing.agree bb (fun (i : Fin 1152) (d' : Fin 16) => u (ix5 n i o d' (0 : Fin 1))) i :=
  agree_of n o b u _ bb _ hb (round_caps n o b u bb hb) i

end Round

/-! ## The program's named sub-terms are the patterns applied to one another -/

section Named
variable (V0 : Valuation τ sig (Elt Ideal))

theorem v7_def : res_main_v7 (F := Ideal) V0 = patEx (res_main_v0 V0) := rfl
theorem v15_def : res_main_v15 (F := Ideal) V0 = patMix (res_main_v7 V0) (V0 (Proc.devRef .tc main_arg0)) := rfl
theorem v18_def : res_main_v18 (F := Ideal) V0 = patSq (res_main_v15 V0) := rfl
theorem v33_def : res_main_v33 (F := Ideal) V0
    = patAgree (res_main_v0 V0) (V0 (Proc.devRef .tc main_arg0)) (patSquash (res_main_v18 V0) (res_main_v15 V0)) := rfl
theorem v40_def : res_main_v40 (F := Ideal) V0 = patEx (res_main_v33 V0) := rfl
theorem v48_def : res_main_v48 (F := Ideal) V0 = patMix (res_main_v40 V0) (V0 (Proc.devRef .tc main_arg0)) := rfl
theorem v51_def : res_main_v51 (F := Ideal) V0 = patSq (res_main_v48 V0) := rfl
theorem v66_def : res_main_v66 (F := Ideal) V0
    = patAgree (res_main_v33 V0) (V0 (Proc.devRef .tc main_arg0)) (patSquash (res_main_v51 V0) (res_main_v48 V0)) := rfl
theorem v73_def : res_main_v73 (F := Ideal) V0 = patEx (res_main_v66 V0) := rfl
theorem v81_def : res_main_v81 (F := Ideal) V0 = patMix (res_main_v73 V0) (V0 (Proc.devRef .tc main_arg0)) := rfl
theorem v84_def : res_main_v84 (F := Ideal) V0 = patSq (res_main_v81 V0) := rfl

/-! ## Three rounds at a pair -/

variable (n : Fin 256) (o : Fin 10)

/-- The logits before the first round read as the zero word. -/
theorem logits0 (i : Fin 1152) : res_main_v0 (F := Ideal) V0 (ix5 n i o (0 : Fin 1) (0 : Fin 1)) = Cert.Routing.b0 i := by
  unfold res_main_v0
  exact broadcastInDim_scalar_apply _ _ _

/-- The logits after the first round. -/
theorem logits1 (i : Fin 1152) : res_main_v33 (F := Ideal) V0 (ix5 n i o (0 : Fin 1) (0 : Fin 1))
    = Cert.Routing.agree Cert.Routing.b0
        (fun (i : Fin 1152) (d' : Fin 16) => V0 (Proc.devRef .tc main_arg0) (ix5 n i o d' (0 : Fin 1))) i := by
  rw [v33_def, v18_def, v15_def, v7_def]
  exact round_agree n o _ _ _ (logits0 V0 n o) i

/-- The logits after the second round. -/
theorem logits2 (i : Fin 1152) : res_main_v66 (F := Ideal) V0 (ix5 n i o (0 : Fin 1) (0 : Fin 1))
    = Cert.Routing.agree (Cert.Routing.agree Cert.Routing.b0
        (fun (i : Fin 1152) (d' : Fin 16) => V0 (Proc.devRef .tc main_arg0) (ix5 n i o d' (0 : Fin 1))))
        (fun (i : Fin 1152) (d' : Fin 16) => V0 (Proc.devRef .tc main_arg0) (ix5 n i o d' (0 : Fin 1))) i := by
  rw [v66_def, v51_def, v48_def, v40_def]
  exact round_agree n o _ _ _ (logits1 V0 n o) i

/-- The third round's output capsule. -/
theorem caps3 (d : Fin 16) :
    patSquash (res_main_v84 (F := Ideal) V0) (res_main_v81 V0) (ix5 n (0 : Fin 1) o d (0 : Fin 1))
    = Cert.Routing.out (fun (i : Fin 1152) (d' : Fin 16) => V0 (Proc.devRef .tc main_arg0) (ix5 n i o d' (0 : Fin 1))) d := by
  rw [v84_def, v81_def, v73_def]
  exact round_caps n o _ _ _ (logits2 V0 n o) d

end Named

/-! ## The run's composed term is the routing of the argument -/

/-- The reference run's result term is three rounds of routing by agreement on the argument array, pair by pair. -/
theorem result_eq (V0 : Valuation τ sig (Elt Ideal)) :
    shapeCast _ (Host.divf (mulf (broadcastInDim S256x1x10x16x1 ![0, 1, 2, 3, 4] bcast_S256x1x10x1x1_S256x1x10x16x1_0_1_2_3_4 (res_main_v84 (F := Ideal) V0)) (res_main_v81 V0)) (broadcastInDim S256x1x10x16x1 ![0, 1, 2, 3, 4] bcast_S256x1x10x1x1_S256x1x10x16x1_0_1_2_3_4 (mulf (addf (broadcastInDim S256x1x10x1x1 ![] bcast_S_S256x1x10x1x1 (constant S_ .f32 0x3F800000#32)) (res_main_v84 V0)) (Host.sqrt (addf (res_main_v84 V0) (broadcastInDim S256x1x10x1x1 ![] bcast_S_S256x1x10x1x1 (constant S_ .f32 0x33D6BF95#32))))))) shapeCasts_S256x1x10x16x1_S256x10x16x1
    = Cert.Routing.whole (V0 (Proc.devRef .tc main_arg0)) := by
  funext j
  obtain ⟨n, o, d, z, rfl⟩ : ∃ (n : Fin 256) (o : Fin 10) (d : Fin 16) (z : Fin 1), j = ix4 n o d z :=
    ⟨j 0, j 1, j 2, j 3, eq_ix4 j⟩
  obtain rfl : z = 0 := Subsingleton.elim _ _
  refine (shapeCast_apply _ _ (ix4 n o d (0 : Fin 1)) (ix5 n (0 : Fin 1) o d (0 : Fin 1)) ?_).trans ?_
  · rw [Shape.rowMajor_val_five, Shape.rowMajor_val_four]
    show (((n.val * 1 + 0) * 10 + o.val) * 16 + d.val) * 1 + 0 = ((n.val * 10 + o.val) * 16 + d.val) * 1 + 0
    omega
  · exact caps3 V0 n o d

/-- THE REFERENCE'S RUN: every weakly fair execution of the reference ends with its result at the routing of the
    argument array and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v95) = Cert.Routing.whole (m ((c.tc : Thread nD τ).loc main_arg0))
      ∧ r.2.mem ((c.tc : Thread nD τ).loc main_arg0) = m ((c.tc : Thread nD τ).loc main_arg0) :=
  (θ_run defs _ _).mono (fun _ h c => ⟨(h c).1.trans (result_eq (launchContents m c)), (h c).2⟩)
    (Cert.ReferenceIdeal.Value.run (F := Ideal) m ρ)

end Cert.ReferenceIdeal.RefValue

end
-- ==== Proof.lean ====
/-
  The certificate of the routing kernel against its reference, on the extended reals.

  Both programs take `U : [256, 1152, 10, 16, 1]` (batch row, input capsule, output capsule, coordinate, a unit axis) and
  return `[256, 10, 16, 1]`: for every pair (batch row `n`, output capsule `o`), three rounds of routing by agreement on
  the 1152 prediction vectors `U (n, ·, o, ·, 0)` (Routing.lean states the rounds once, as finite sums and a finite
  maximum on the extended reals). The reference computes all pairs at once on the argument's own layout; the kernel
  first moves the input-capsule axis last, then handles 64 batch rows of one output capsule per grid point, and finally
  swaps two axes back. Every arithmetic operation of a round is the same in both, in the same order and on the same
  32-bit words, so the two results are equal entry by entry with no appeal to finiteness: a finite sum and a finite
  maximum do not depend on how they are grouped or on the layout they run over.

  The three runs: the kernel's two frames are the generated ones; the reference's frame is its generated run with the
  result dropped. The idealization rewrote nothing, so its conjunct is trivial. For the value: KernelValue.lean reads the
  kernel's result array off its frame run as `Routing.whole U` (Block.lean: what one grid point stores, entry by entry),
  RefValue.lean reads the reference's composed term as the same `Routing.whole U`, and the two runs are set side by side
  from memories that agree on the argument.
-/
import proofs.«133834_j41154376630991_2_alg».proof.Defs
import proofs.«133834_j41154376630991_2_alg».proof.Proof.Gen.Kernel
import proofs.«133834_j41154376630991_2_alg».proof.Proof.Gen.Kernel.Skeleton
import proofs.«133834_j41154376630991_2_alg».proof.Proof.Gen.Kernel.Launch
import proofs.«133834_j41154376630991_2_alg».proof.Proof.Gen.Kernel.Points
import proofs.«133834_j41154376630991_2_alg».proof.Proof.Gen.Kernel.Frame
import proofs.«133834_j41154376630991_2_alg».proof.Proof.Gen.KernelIdeal
import proofs.«133834_j41154376630991_2_alg».proof.Proof.Gen.KernelIdeal.Skeleton
import proofs.«133834_j41154376630991_2_alg».proof.Proof.Gen.KernelIdeal.Launch
import proofs.«133834_j41154376630991_2_alg».proof.Proof.Gen.KernelIdeal.Points
import proofs.«133834_j41154376630991_2_alg».proof.Proof.Gen.KernelIdeal.Frame
import proofs.«133834_j41154376630991_2_alg».proof.Proof.Gen.ReferenceIdeal
import proofs.«133834_j41154376630991_2_alg».proof.Proof.Gen.Pre_finite_inputs
import proofs.«133834_j41154376630991_2_alg».proof.Proof.Gen.ReferenceIdeal.Run
import proofs.«133834_j41154376630991_2_alg».proof.Proof.KernelValue
import proofs.«133834_j41154376630991_2_alg».proof.Proof.RefValue
import Idealize.ShloMosaic.Adequacy
import Idealize.ShloMosaic.Init

noncomputable section

namespace Cert.Proof

open Idealize.ShloMosaic Idealize.SL.Sem

/-- The word-level kernel runs and leaves its argument as launched: the generated frame. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference has no kernel: its frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on the argument both idealized programs end with their result at `Routing.whole` of it. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Routing.whole (m ((c.tc : Thread Cert.KernelIdeal.nD Cert.KernelIdeal.τ).loc Cert.KernelIdeal.main_arg0)),
    Cert.KernelIdeal.Arrays.run m ρ, ?_⟩
  refine (θ_run Cert.ReferenceIdeal.defs _ _).mono (fun _ h c => ⟨(h c).1.trans ?_, (h c).2⟩)
    (Cert.ReferenceIdeal.RefValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
